-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S512 : Shape := ⟨1, ![512]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S32x512x32x32 .f32) (main_arg1 : FVec F S512 .f32) (main_arg2 : FVec F S512 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S32x512x32x32 : Shape := ⟨4, ![32, 512, 32, 32]⟩
abbrev S512 : Shape := ⟨1, ![512]⟩
abbrev S32x512x1x1 : Shape := ⟨4, ![32, 512, 1, 1]⟩
abbrev S8x128x32x32 : Shape := ⟨4, ![8, 128, 32, 32]⟩
abbrev S8x128x1x1 : Shape := ⟨4, ![8, 128, 1, 1]⟩
abbrev S8x128x32 : Shape := ⟨3, ![8, 128, 32]⟩
abbrev S8x128x32x1 : Shape := ⟨4, ![8, 128, 32, 1]⟩
abbrev S8x128x1 : Shape := ⟨3, ![8, 128, 1]⟩
abbrev S32x512 : Shape := ⟨2, ![32, 512]⟩
abbrev S_ : Shape := ⟨0, ![]⟩
abbrev S1x512 : Shape := ⟨2, ![1, 512]⟩
abbrev S1x512x1x1 : Shape := ⟨4, ![1, 512, 1, 1]⟩
abbrev S1x128x1x1 : Shape := ⟨4, ![1, 128, 1, 1]⟩

abbrev nBuf : Space → Nat
  | .hbm => 29
  | .vmem => 12
  | .smem => 0
  | _ => 0

abbrev bufTy : (tb : Table) → Fin (tcTables nBuf tb) → BufTy
  | .hbm, ⟨0, _⟩ => ⟨S32x512x32x32, .f32⟩
  | .hbm, ⟨1, _⟩ => ⟨S512, .f32⟩
  | .hbm, ⟨2, _⟩ => ⟨S512, .f32⟩
  | .hbm, ⟨3, _⟩ => ⟨S32x512x1x1, .f32⟩
  | .hbm, ⟨4, _⟩ => ⟨S32x512, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S32x512, .f32⟩
  | .hbm, ⟨15, _⟩ => ⟨S32x512, .f32⟩
  | .hbm, ⟨16, _⟩ => ⟨S32x512, .f32⟩
  | .hbm, ⟨17, _⟩ => ⟨S_, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1x512x1x1, .f32⟩
  | .hbm, ⟨27, _⟩ => ⟨S1x512x1x1, .f32⟩
  | .hbm, ⟨28, _⟩ => ⟨S32x512x32x32, .f32⟩
  | .local _ .vmem, ⟨0, _⟩ => ⟨S8x128x32x32, .f32⟩
  | .local _ .vmem, ⟨1, _⟩ => ⟨S8x128x32x32, .f32⟩
  | .local _ .vmem, ⟨2, _⟩ => ⟨S8x128x1x1, .f32⟩
  | .local _ .vmem, ⟨3, _⟩ => ⟨S8x128x1x1, .f32⟩
  | .local _ .vmem, ⟨4, _⟩ => ⟨S8x128x32x32, .f32⟩
  | .local _ .vmem, ⟨5, _⟩ => ⟨S8x128x32x32, .f32⟩
  | .local _ .vmem, ⟨6, _⟩ => ⟨S1x128x1x1, .f32⟩
  | .local _ .vmem, ⟨7, _⟩ => ⟨S1x128x1x1, .f32⟩
  | .local _ .vmem, ⟨8, _⟩ => ⟨S1x128x1x1, .f32⟩
  | .local _ .vmem, ⟨9, _⟩ => ⟨S1x128x1x1, .f32⟩
  | .local _ .vmem, ⟨10, _⟩ => ⟨S8x128x32x32, .f32⟩
  | .local _ .vmem, ⟨11, _⟩ => ⟨S8x128x32x32, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x128x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S8x128x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x128x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x128x32x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S8x128x32x32_S8x128x32x32_0_0_0_0 : ∀ a, (![0, 0, 0, 0] : Fin 4 → Nat) a + S8x128x32x32.size a ≤ S8x128x32x32.size a
  h_S8x128x32x32 : 0 < S8x128x32x32.numel
  reduces_S8x128x32x32_S8x128x32 : S8x128x32x32.Reduces [3] S8x128x32
  shapeCasts_S8x128x32_S8x128x32x1 : S8x128x32.ShapeCasts S8x128x32x1
  reduces_S8x128x32x1_S8x128x1 : S8x128x32x1.Reduces [2] S8x128x1
  shapeCasts_S8x128x1_S8x128x1x1 : S8x128x1.ShapeCasts S8x128x1x1
  inb_S8x128x1x1_S8x128x1x1_0_0_0_0 : ∀ a, (![0, 0, 0, 0] : Fin 4 → Nat) a + S8x128x1x1.size a ≤ S8x128x1x1.size a
  h_S8x128x1x1 : 0 < S8x128x1x1.numel
  shapeCasts_S32x512x1x1_S32x512 : S32x512x1x1.ShapeCasts S32x512
  reducesTo_S32x512_S512_d0 : S32x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S32x512_0_1 : S1x512.BroadcastsInDim S32x512 (![0, 1] : Fin 2 → Fin S32x512.rank)
  shapeCasts_S512_S1x512x1x1 : S512.ShapeCasts S1x512x1x1
  inb_S1x128x1x1_S1x128x1x1_0_0_0_0 : ∀ a, (![0, 0, 0, 0] : Fin 4 → Nat) a + S1x128x1x1.size a ≤ S1x128x1x1.size a
  h_S1x128x1x1 : 0 < S1x128x1x1.numel
  shapeCasts_S1x128x1x1_S1x128x1x1 : S1x128x1x1.ShapeCasts S1x128x1x1
  broadcasts_S1x128x1x1_S8x128x32x32 : S1x128x1x1.Broadcasts S8x128x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x32x32.size a ≤ S32x512x32x32.size a
  hwx0_0 : ∀ i : grid0.Coords, EltTy.bits .f32 = 32 ∨ (Rect.block (s := S32x512x32x32) S8x128x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1x1.size a ≤ S32x512x1x1.size a
  hwx0_1 : ∀ i : grid0.Coords, EltTy.bits .f32 = 32 ∨ (Rect.block (s := S32x512x1x1) S8x128x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x32x32.size a ≤ S32x512x32x32.size a
  hwx1_0 : ∀ i : grid1.Coords, EltTy.bits .f32 = 32 ∨ (Rect.block (s := S32x512x32x32) S8x128x32x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x1x1.size a ≤ S1x512x1x1.size a
  hwx1_1 : ∀ i : grid1.Coords, EltTy.bits .f32 = 32 ∨ (Rect.block (s := S1x512x1x1) S1x128x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1x1.size a ≤ S1x512x1x1.size a
  hwx1_2 : ∀ i : grid1.Coords, EltTy.bits .f32 = 32 ∨ (Rect.block (s := S1x512x1x1) S1x128x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128x32x32.size a ≤ S32x512x32x32.size a
  hwx1_3 : ∀ i : grid1.Coords, EltTy.bits .f32 = 32 ∨ (Rect.block (s := S32x512x32x32) S8x128x32x32.size (cc1_transform_3 i) (hinb1_3 i)).WholeWords (EltTy.packing .f32)

variable [Facts₀]

abbrev win0_0 : Pipeline.Window sig grid0 :=
  Pipeline.Window.ofSpec (Memref.whole main_arg0) S8x128x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S8x128x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S8x128x32x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x512x32x32 : Shape := ⟨4, ![32, 512, 32, 32]⟩
abbrev S512 : Shape := ⟨1, ![512]⟩
abbrev S_ : Shape := ⟨0, ![]⟩
abbrev S1x512x1x1 : Shape := ⟨4, ![1, 512, 1, 1]⟩
abbrev S32x512 : Shape := ⟨2, ![32, 512]⟩

abbrev nBuf : Space → Nat
  | .hbm => 29
  | .vmem => 0
  | .smem => 0
  | _ => 0

abbrev bufTy : (tb : Table) → Fin (tcTables nBuf tb) → BufTy
  | .hbm, ⟨0, _⟩ => ⟨S32x512x32x32, .f32⟩
  | .hbm, ⟨1, _⟩ => ⟨S512, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S1x512x1x1, .f32⟩
  | .hbm, ⟨6, _⟩ => ⟨S_, .f32⟩
  | .hbm, ⟨7, _⟩ => ⟨S1x512x1x1, .f32⟩
  | .hbm, ⟨8, _⟩ => ⟨S1x512x1x1, .f32⟩
  | .hbm, ⟨9, _⟩ => ⟨S32x512x32x32, .f32⟩
  | .hbm, ⟨10, _⟩ => ⟨S32x512x32x32, .f32⟩
  | .hbm, ⟨11, _⟩ => ⟨S_, .f32⟩
  | .hbm, ⟨12, _⟩ => ⟨S32x512, .f32⟩
  | .hbm, ⟨13, _⟩ => ⟨S32x512, .f32⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S1x512x1x1, .f32⟩
  | .hbm, ⟨21, _⟩ => ⟨S32x512x32x32, .f32⟩
  | .hbm, ⟨22, _⟩ => ⟨S32x512x32x32, .f32⟩
  | .hbm, ⟨23, _⟩ => ⟨S1x512x1x1, .f32⟩
  | .hbm, ⟨24, _⟩ => ⟨S32x512x32x32, .f32⟩
  | .hbm, ⟨25, _⟩ => ⟨S32x512x32x32, .f32⟩
  | .hbm, ⟨26, _⟩ => ⟨S1x512x1x1, .f32⟩
  | .hbm, ⟨27, _⟩ => ⟨S32x512x32x32, .f32⟩
  | .hbm, ⟨28, _⟩ => ⟨S32x512x32x32, .f32⟩
  | _, _ => ⟨S32x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S32x512x32x32_S512_d0_2_3 : S32x512x32x32.ReducesTo [0, 2, 3] S512
  h_S_ : 0 < S_.numel
  bcast_S512_S1x512x1x1_1 : S512.BroadcastsInDim S1x512x1x1 (![1] : Fin 1 → Fin S1x512x1x1.rank)
  bcast_S_S1x512x1x1 : S_.BroadcastsInDim S1x512x1x1 (![] : Fin 0 → Fin S1x512x1x1.rank)
  bcast_S1x512x1x1_S32x512x32x32_0_1_2_3 : S1x512x1x1.BroadcastsInDim S32x512x32x32 (![0, 1, 2, 3] : Fin 4 → Fin S32x512x32x32.rank)
  reducesTo_S32x512x32x32_S32x512_d2_3 : S32x512x32x32.ReducesTo [2, 3] S32x512
  reducesTo_S32x512_S512_d0 : S32x512.ReducesTo [0] S512
  bcast_S_S512 : S_.BroadcastsInDim S512 (![] : Fin 0 → Fin S512.rank)
  shapeCasts_S512_S1x512x1x1 : S512.ShapeCasts S1x512x1x1

variable [Facts₀]

class Facts : Prop extends Facts₀ where

variable [Facts]
-- ==== Proof.KernelRun.lean ====
/-
  The idealized kernel's run with its result named.

  @main is three segments: the first region (plane sums), a stretch of host operations, the second region (the
  per-channel affine map). The buffer contents at the segment boundaries form a fold from the launch memory: the
  contents `W1` after the first region (its arrays at what its write-backs leave), `W2` after the host operations,
  `W3` after the second region. Every weakly fair execution terminates without a fault in a state whose unscoped
  buffers hold `W3`; in particular the result buffer holds `W3` at its reference, and the three argument arrays
  hold what they held at launch.
-/
import proofs.«113589_j72859825209967_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from the launch memory `m` terminates, nothing faulting, with the result
    buffer at the last boundary's contents `W3` and the argument arrays as launched. -/
theorem run_main : θ_run defs (onTc (τ := τ) (main (F := F))) ⟨m, fun _ => 0, ρ⟩ (fun r => ∀ c : Dev nD,
      r.2.mem ((c.tc : Thread nD τ).loc main_v20) = W3 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v20 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Run

end
-- ==== Proof.Spec.lean ====
/-
  The two arrangements of one normalisation, as formulas on the extended reals.

  The input `x` has extents [32, 512, 32, 32] (sample, channel, row, column); `g` and `b` are per-channel gain and
  offset. Both programs compute, per channel `c`, the mean `μ c` of `x` over samples, rows and columns, then the
  per-sample sums `s n c` of the centred entries over rows and columns, the quantity `d c = (Σ_n (s n c)²) / 1024`, and
  return `g c · |d c| · (x − μ c) + b c`.

  One arrangement sums each (sample, channel) plane first, takes the mean of those 32 plane sums, and centres the
  PLANE SUMS by subtracting `μ c · 1024`; its result is `x · (g c · |d c|) + (b c − (g c · |d c|) · μ c)`.
  The other centres every ENTRY by `μ c` (the mean taken as one sum over the three axes), sums the centred entries over
  each plane, and returns `g c · ((x − μ c) · |d c|) + b c`.

  The float words are kept as written: `0`, `1024` and `32768`.
-/
import Idealize.ShloMosaic.PureOps.Ideal.Laws
import Idealize.ShloMosaic.Lib.ValueIdx

open scoped BigOperators

noncomputable section

namespace Cert.Spec

open Idealize.ShloMosaic Idealize.ShloMosaic.ValueIdx

/-- An array of extents [32, 512, 32, 32] on the extended reals. -/
abbrev Arr4 : Type := (⟨4, ![32, 512, 32, 32]⟩ : Shape).Idx → EReal
/-- A per-channel vector of extent [512] on the extended reals. -/
abbrev Arr1 : Type := (⟨1, ![512]⟩ : Shape).Idx → EReal

/-- The float words `0.0`, `1024.0` and `32768.0` as the programs spell them. -/
abbrev w0 : EReal := Ideal.ofBits .f32 0x00000000#32
abbrev w1024 : EReal := Ideal.ofBits .f32 0x44800000#32
abbrev w32768 : EReal := Ideal.ofBits .f32 0x47000000#32

/-! ## Plane sums first -/

/-- The sum of one (sample, channel) plane: over rows, of the sums over columns. -/
def planeSum (x : Arr4) (n : Fin 32) (c : Fin 512) : EReal :=
  ∑ h : Fin 32, ∑ w : Fin 32, x (ix4 n c h w)

/-- A table of plane sums: one extended real per (sample, channel). The next five quantities are functions of such a
    table `P`, whatever it holds. -/
abbrev Planes : Type := Fin 32 → Fin 512 → EReal

/-- The channel mean from the plane sums: their sum over samples (from `0`), divided by `32768`. -/
def meanP (P : Planes) (c : Fin 512) : EReal :=
  Ideal.div (w0 + ∑ n : Fin 32, P n c) w32768

/-- A plane sum centred by the channel mean times `1024`. -/
def centredP (P : Planes) (n : Fin 32) (c : Fin 512) : EReal :=
  P n c - meanP P c * w1024

/-- The sum over samples of the squared centred plane sums (from `0`), divided by `1024`. -/
def quadP (P : Planes) (c : Fin 512) : EReal :=
  Ideal.div (w0 + ∑ n : Fin 32, centredP P n c * centredP P n c) w1024

/-- The per-channel multiplier: the gain times the absolute value of `quadP`. -/
def gainP (P : Planes) (g : Arr1) (c : Fin 512) : EReal :=
  g (ix1 c) * max (quadP P c) (-(quadP P c))

/-- The per-channel offset: `b c − (gain · mean)`. -/
def offsetP (P : Planes) (g b : Arr1) (c : Fin 512) : EReal :=
  b (ix1 c) - gainP P g c * meanP P c

/-- The result of the plane-sums-first arrangement at (n, c, h, w). -/
def outP (x : Arr4) (g b : Arr1) (n : Fin 32) (c : Fin 512) (h w : Fin 32) : EReal :=
  x (ix4 n c h w) * gainP (planeSum x) g c + offsetP (planeSum x) g b c

/-- A per-channel affine map of `x`: the multiplier `s` and the offset `t` given as arrays of extents [1, 512, 1, 1]. -/
def affine (x : Arr4) (s t : (⟨4, ![1, 512, 1, 1]⟩ : Shape).Idx → EReal) (i : (⟨4, ![32, 512, 32, 32]⟩ : Shape).Idx) : EReal :=
  x i * s (ix4 (0 : Fin 1) (i 1) (0 : Fin 1) (0 : Fin 1)) + t (ix4 (0 : Fin 1) (i 1) (0 : Fin 1) (0 : Fin 1))

/-! ## Entries centred first -/

/-- The channel mean as one sum over samples, rows and columns (from `0`), divided by `32768`. -/
def meanE (x : Arr4) (c : Fin 512) : EReal :=
  Ideal.div (w0 + ∑ n : Fin 32, ∑ h : Fin 32, ∑ w : Fin 32, x (ix4 n c h w)) w32768

/-- An entry centred by its channel mean. -/
def centredE (x : Arr4) (n : Fin 32) (c : Fin 512) (h w : Fin 32) : EReal :=
  x (ix4 n c h w) - meanE x c

/-- The sum of the centred entries of one plane (from `0`). -/
def planeSumE (x : Arr4) (n : Fin 32) (c : Fin 512) : EReal :=
  w0 + ∑ h : Fin 32, ∑ w : Fin 32, centredE x n c h w

/-- The sum over samples of the squared centred plane sums (from `0`), divided by `1024`. -/
def quadE (x : Arr4) (c : Fin 512) : EReal :=
  Ideal.div (w0 + ∑ n : Fin 32, planeSumE x n c * planeSumE x n c) w1024

/-- The result of the entries-centred-first arrangement at (n, c, h, w). -/
def outE (x : Arr4) (g b : Arr1) (n : Fin 32) (c : Fin 512) (h w : Fin 32) : EReal :=
  g (ix1 c) * (centredE x n c h w * max (quadE x c) (-(quadE x c))) + b (ix1 c)

end Cert.Spec

end
-- ==== Proof.HostStages.lean ====
/-
  The host operations between the two kernel regions, as stages.

  Between the regions the program turns the array `r` of plane sums, extents [32, 512, 1, 1], into the two
  per-channel arrays the second region reads, extents [1, 512, 1, 1]: the multiplier and the offset. With
  `P n c = r (n, c, 0, 0)` the table of plane sums, the stretch computes the channel mean `meanP P c` (the sum of the
  plane sums over the samples, divided by 32768), the centred plane sums `centredP P n c = P n c − meanP P c · 1024`,
  the quantity `quadP P c` (the sum over the samples of their squares, divided by 1024), the multiplier
  `gainP P g c = g c · |quadP P c|` and the offset `offsetP P g b c = b c − gainP P g c · meanP P c`.

  Each operation is a stage: a function of the stages before it.
-/
import proofs.«113589_j72859825209967_2_alg».proof.Proof.Gen.KernelIdeal
import proofs.«113589_j72859825209967_2_alg».proof.Proof.Spec
import Idealize.ShloMosaic.PureOps.Ideal.Laws

open scoped BigOperators

noncomputable section

namespace Cert.KernelIdeal.HostStretch

open Cert.KernelIdeal Cert.KernelIdeal.Gen Idealize.ShloMosaic Idealize.SL.Sem
open Idealize.ShloMosaic.ValueIdx Cert.Spec

/-- The contents of an array of extents [32, 512, 1, 1], [32, 512], [1, 512], [512], [1, 512, 1, 1]. -/
abbrev C3211 : Type := FVec Ideal S32x512x1x1 .f32
abbrev C32 : Type := FVec Ideal S32x512 .f32
abbrev C1r : Type := FVec Ideal S1x512 .f32
abbrev C1 : Type := FVec Ideal S512 .f32
abbrev C1511 : Type := FVec Ideal S1x512x1x1 .f32

/-- The table of plane sums an array of extents [32, 512, 1, 1] holds. -/
def planesOf (r : C3211) : Planes := fun n c => r (ix4 n c (0 : Fin 1) (0 : Fin 1))

/-! ## The stages -/

/-- The plane sums as a [32, 512] array. -/
def sPlanes (r : C3211) : C32 := shapeCast S32x512 r shapeCasts_S32x512x1x1_S32x512
/-- Their sum over the samples, from the word `0`. -/
def sTotal (r : C3211) : C1 :=
  Host.reduceAdd (sPlanes r) (constant (F := Ideal) S_ .f32 0x00000000#32) reducesTo_S32x512_S512_d0 h_S_
/-- The channel mean. -/
def sMean (r : C3211) : C1 :=
  Host.divf (sTotal r) (broadcastInDim S512 ![] bcast_S_S512 (constant (F := Ideal) S_ .f32 0x47000000#32))
/-- The channel mean times `1024`, as a row. -/
def sShift (r : C3211) : C1r :=
  mulf (broadcastInDim S1x512 ![1] bcast_S512_S1x512_1 (sMean r))
    (broadcastInDim S1x512 ![] bcast_S_S1x512 (constant (F := Ideal) S_ .f32 0x44800000#32))
/-- The centred plane sums. -/
def sCentred (r : C3211) : C32 :=
  subf (sPlanes r) (broadcastInDim S32x512 ![0, 1] bcast_S1x512_S32x512_0_1 (sShift r))
/-- The sum over the samples of their squares, divided by `1024`. -/
def sQuad (r : C3211) : C1 :=
  Host.divf (Host.reduceAdd (mulf (sCentred r) (sCentred r)) (constant (F := Ideal) S_ .f32 0x00000000#32) reducesTo_S32x512_S512_d0 h_S_)
    (broadcastInDim S512 ![] bcast_S_S512 (constant (F := Ideal) S_ .f32 0x44800000#32))
/-- The multiplier. -/
def sGain (r : C3211) (g : C1) : C1 := mulf g (Host.absf (sQuad r))
/-- The offset. -/
def sOffset (r : C3211) (g b : C1) : C1 := subf b (mulf (sGain r g) (sMean r))
/-- The two as [1, 512, 1, 1] arrays. -/
def sGain4 (r : C3211) (g : C1) : C1511 := shapeCast S1x512x1x1 (sGain r g) shapeCasts_S512_S1x512x1x1
def sOffset4 (r : C3211) (g b : C1) : C1511 := shapeCast S1x512x1x1 (sOffset r g b) shapeCasts_S512_S1x512x1x1

end Cert.KernelIdeal.HostStretch

end
-- ==== Proof.HostStretch.lean ====
/-
  What the host operations between the two kernel regions leave in the buffers the second region reads.

  Run from any buffer contents `U`, the stretch leaves in the multiplier's buffer the multiplier stage, and in the
  offset's buffer the offset stage, of the plane-sum array, the gain and the offset held in `U`; the first argument's
  buffer is not written.
-/
import proofs.«113589_j72859825209967_2_alg».proof.Proof.Gen.KernelIdeal.Launch
import proofs.«113589_j72859825209967_2_alg».proof.Proof.HostStages
import Idealize.ShloMosaic.Lib.StableHlo.Run

noncomputable section

namespace Cert.KernelIdeal.HostStretch

open Cert.KernelIdeal Cert.KernelIdeal.Gen Idealize.ShloMosaic Idealize.ShloMosaic.TcCoe Idealize.SL.Sem
open Idealize.ShloMosaic.StableHlo Idealize.ShloMosaic.ValueIdx Cert.Spec

variable (U : Valuation τ sig (Elt Ideal))

/-- After the host operations the multiplier's buffer holds the multiplier stage of the plane-sum array and the gain. -/
theorem after_gain :
    StableHlo.after (hostOps1 (F := Ideal)) U (Proc.devRef .tc main_v18)
      = sGain4 (U (Proc.devRef .tc main_v0)) (U (Proc.devRef .tc main_arg1)) := by
  after_results
  rfl

set_option maxHeartbeats 1000000 in
/-- After the host operations the offset's buffer holds the offset stage. -/
theorem after_offset :
    StableHlo.after (hostOps1 (F := Ideal)) U (Proc.devRef .tc main_v19)
      = sOffset4 (U (Proc.devRef .tc main_v0)) (U (Proc.devRef .tc main_arg1)) (U (Proc.devRef .tc main_arg2)) := by
  unfold sOffset4 sOffset sGain sQuad sCentred sShift sMean sTotal sPlanes
  after_results
  rfl

/-- The host operations leave the first argument's buffer as it was. -/
theorem after_input :
    StableHlo.after (hostOps1 (F := Ideal)) U (Proc.devRef .tc main_arg0) = U (Proc.devRef .tc main_arg0) := by
  after_results

end Cert.KernelIdeal.HostStretch

end
-- ==== Proof.HostStagesRead.lean ====
/-
  The host operations between the two kernel regions, read at an index.

  Each stage, read at coordinates (sample `n`, channel `c`), is the quantity of the specification it is named after,
  on the table `planesOf r` of plane sums: a reshape keeps the row-major position; a broadcast reads its operand at the
  target's coordinates, `0` on a unit axis; a pointwise operation acts entry by entry; the sum over the samples is the
  word `0` plus the sum over `n`. The float words stay as written.
-/
import proofs.«113589_j72859825209967_2_alg».proof.Proof.HostStages
import Idealize.ShloMosaic.Lib.Pipeline.Value
import Idealize.ShloMosaic.PureOps.Ideal.Laws

open scoped BigOperators

noncomputable section

namespace Cert.KernelIdeal.HostStretch

open Cert.KernelIdeal Cert.KernelIdeal.Gen Idealize.ShloMosaic Idealize.SL.Sem
open Idealize.ShloMosaic.ValueIdx Cert.Spec
open Idealize.ShloMosaic.TcCoe

/-! ## The operations at an index -/

/-- A quotient of two per-channel arrays, at a channel, is the quotient of the entries. -/
theorem hostDivf_apply (a b : C1) (i : S512.Idx) : Host.divf a b i = Ideal.div (a i) (b i) := rfl

/-- The absolute value of a per-channel array, at a channel, is the larger of the entry and its negative. -/
theorem hostAbsf_apply (a : C1) (i : S512.Idx) : Host.absf a i = max (a i) (-(a i)) := rfl

/-- A float word spread over the channels reads as the word at every channel. -/
theorem wordChannels_apply (bits : BitVec 32) (c : Fin 512) :
    broadcastInDim S512 ![] bcast_S_S512 (constant (F := Ideal) S_ .f32 bits) (ix1 c) = Ideal.ofBits .f32 bits :=
  broadcastInDim_apply _ bcast_S_S512 (constant (F := Ideal) S_ .f32 bits) (ix1 c) ix0 (fun a => a.elim0)

/-- A float word spread over a row of channels reads as the word at every channel. -/
theorem wordRow_apply (bits : BitVec 32) (c : Fin 512) :
    broadcastInDim S1x512 ![] bcast_S_S1x512 (constant (F := Ideal) S_ .f32 bits) (ix2 (0 : Fin 1) c)
      = Ideal.ofBits .f32 bits :=
  broadcastInDim_apply _ bcast_S_S1x512 (constant (F := Ideal) S_ .f32 bits) (ix2 (0 : Fin 1) c) ix0 (fun a => a.elim0)

/-- The sum over the samples of a [32, 512] array, at a channel: the word `0` plus the sum over `n`. -/
theorem sumSamples_apply (y : C32) (c : Fin 512) :
    Host.reduceAdd y (constant (F := Ideal) S_ .f32 0x00000000#32) reducesTo_S32x512_S512_d0 h_S_ (ix1 c)
      = w0 + ∑ n : Fin 32, y (ix2 n c) := by
  simp only [Host.reduceAdd, Ideal.hostReduceAdd_def]
  rw [Ideal.hostReduceAdd_single reducesTo_S32x512_S512_d0 (by decide)]
  refine congrArg (_ + ·) (Finset.sum_congr rfl fun k _ => ?_)
  exact congrArg y (funext fun a => Fin.ext (by match a with | ⟨0, _⟩ => rfl | ⟨1, _⟩ => rfl))

/-! ## The stages at an index -/

/-- The plane sums as a [32, 512] array hold the table of plane sums. -/
theorem sPlanes_apply (r : C3211) (n : Fin 32) (c : Fin 512) : sPlanes r (ix2 n c) = planesOf r n c := by
  unfold sPlanes planesOf
  exact shapeCast_apply r shapeCasts_S32x512x1x1_S32x512 (ix2 n c) (ix4 n c (0 : Fin 1) (0 : Fin 1))
    (by rewrite [Shape.rowMajor_val_two, Shape.rowMajor_val_four]
        show ((n.val * 512 + c.val) * 1 + 0) * 1 + 0 = n.val * 512 + c.val
        omega)

/-- The sum of the plane sums over the samples. -/
theorem sTotal_apply (r : C3211) (c : Fin 512) : sTotal r (ix1 c) = w0 + ∑ n : Fin 32, planesOf r n c := by
  unfold sTotal
  rw [sumSamples_apply]
  simp only [sPlanes_apply]

/-- The channel mean. -/
theorem sMean_apply (r : C3211) (c : Fin 512) : sMean r (ix1 c) = meanP (planesOf r) c := by
  unfold sMean
  rw [hostDivf_apply, sTotal_apply, wordChannels_apply]
  rfl

/-- The channel mean times `1024`. -/
theorem sShift_apply (r : C3211) (c : Fin 512) : sShift r (ix2 (0 : Fin 1) c) = meanP (planesOf r) c * w1024 := by
  unfold sShift
  rw [mulf_apply, wordRow_apply,
    broadcastInDim_apply _ bcast_S512_S1x512_1 (sMean r) (ix2 (0 : Fin 1) c) (ix1 c) (fun a => match a with
      | ⟨0, _⟩ => by show c.val = if (512 : Nat) = 1 then 0 else c.val; rw [if_neg (by decide)]),
    sMean_apply]

/-- The centred plane sums. -/
theorem sCentred_apply (r : C3211) (n : Fin 32) (c : Fin 512) : sCentred r (ix2 n c) = centredP (planesOf r) n c := by
  unfold sCentred
  rw [subf_apply, sPlanes_apply,
    broadcastInDim_apply _ bcast_S1x512_S32x512_0_1 (sShift r) (ix2 n c) (ix2 (0 : Fin 1) c) (fun a => match a with
      | ⟨0, _⟩ => by show 0 = if (1 : Nat) = 1 then 0 else n.val; rw [if_pos rfl]
      | ⟨1, _⟩ => by show c.val = if (512 : Nat) = 1 then 0 else c.val; rw [if_neg (by decide)]),
    sShift_apply]
  rfl

/-- The sum over the samples of the squared centred plane sums, divided by `1024`. -/
theorem sQuad_apply (r : C3211) (c : Fin 512) : sQuad r (ix1 c) = quadP (planesOf r) c := by
  unfold sQuad
  rw [hostDivf_apply, sumSamples_apply, wordChannels_apply]
  simp only [mulf_apply, sCentred_apply]
  rfl

/-- The multiplier. -/
theorem sGain_apply (r : C3211) (g : C1) (c : Fin 512) : sGain r g (ix1 c) = gainP (planesOf r) g c := by
  unfold sGain
  rw [mulf_apply, hostAbsf_apply, sQuad_apply]
  rfl

/-- The offset. -/
theorem sOffset_apply (r : C3211) (g b : C1) (c : Fin 512) : sOffset r g b (ix1 c) = offsetP (planesOf r) g b c := by
  unfold sOffset
  rw [subf_apply, mulf_apply, sGain_apply, sMean_apply]
  rfl

/-! ## The two results as [1, 512, 1, 1] arrays -/

/-- A per-channel array reshaped to extents [1, 512, 1, 1] holds, at channel `c`, its entry at `c`. -/
theorem channels4_apply (y : C1) (c : Fin 512) :
    shapeCast S1x512x1x1 y shapeCasts_S512_S1x512x1x1 (ix4 (0 : Fin 1) c (0 : Fin 1) (0 : Fin 1)) = y (ix1 c) :=
  shapeCast_apply y shapeCasts_S512_S1x512x1x1 (ix4 (0 : Fin 1) c (0 : Fin 1) (0 : Fin 1)) (ix1 c)
    (by rewrite [Shape.rowMajor_val_one, Shape.rowMajor_val_four]
        show c.val = ((0 * 512 + c.val) * 1 + 0) * 1 + 0
        omega)

theorem sGain4_apply (r : C3211) (g : C1) (c : Fin 512) :
    sGain4 r g (ix4 (0 : Fin 1) c (0 : Fin 1) (0 : Fin 1)) = gainP (planesOf r) g c := by
  unfold sGain4
  rw [channels4_apply, sGain_apply]

theorem sOffset4_apply (r : C3211) (g b : C1) (c : Fin 512) :
    sOffset4 r g b (ix4 (0 : Fin 1) c (0 : Fin 1) (0 : Fin 1)) = offsetP (planesOf r) g b c := by
  unfold sOffset4
  rw [channels4_apply, sOffset_apply]

end Cert.KernelIdeal.HostStretch

end
-- ==== Proof.PlaneSums.lean ====
/-
  What the first kernel region leaves in its output array.

  The region walks a 4 x 4 grid of points. At the point (a, b) it reads the block of extents [8, 128, 32, 32] of the
  input array [32, 512, 32, 32] at block index (a, b, 0, 0), sums it over its last axis (columns), then over its third
  axis (rows), and writes the [8, 128, 1, 1] result to the block of the output array [32, 512, 1, 1] at block index
  (a, b, 0, 0). A block's coordinate in its array is block index times block extent plus the coordinate inside the block,
  so the entry (p, q, 0, 0) of the block written at (a, b) is the entry (8a + p, 128b + q, 0, 0) of the output, and it
  holds the sum over rows h of the sums over columns w of the input at (8a + p, 128b + q, h, w): the plane sum of that
  (sample, channel) plane. Every index (n, c, 0, 0) of the output lies in the block of the point (n / 8, c / 128), so
  after the sixteen points the output array is the table of plane sums.
-/
import proofs.«113589_j72859825209967_2_alg».proof.Proof.Gen.KernelIdeal.Frame
import proofs.«113589_j72859825209967_2_alg».proof.Proof.Spec
import Idealize.ShloMosaic.Lib.Pipeline.Value

open scoped BigOperators

noncomputable section

namespace Cert.KernelIdeal.PlaneSums
open Idealize.ShloMosaic Idealize.ShloMosaic.TcCoe Idealize.SL.Sem Idealize.ShloMosaic.ValueIdx Cert.KernelIdeal Cert.KernelIdeal.Gen

/-! ## The stored value at an index -/

/-- The body's stored value at (p, q, 0, 0) is the sum over rows h of the sums over columns w of the block at
    (p, q, h, w). The two casts between [8, 128, 32] and [8, 128, 32, 1], and between [8, 128, 1] and [8, 128, 1, 1],
    keep the row-major position; each reduction over one axis is the sum over that axis's coordinates. -/
theorem payload_apply (x0 : Vec Ideal S8x128x32x32 .f32) (p : Fin 8) (q : Fin 128) :
    Gen.k0_pay1 (F := Ideal) x0 (ix4 p q (0 : Fin 1) (0 : Fin 1)) = ∑ h : Fin 32, ∑ w : Fin 32, x0 (ix4 p q h w) := by
  unfold Gen.k0_pay1
  -- [8, 128, 1, 1] at (p, q, 0, 0) reads [8, 128, 1] at (p, q, 0)
  refine (shapeCast_apply _ _ _ (ix3 p q (0 : Fin 1)) ?_).trans ?_
  · rw [Shape.rowMajor_val_three, Shape.rowMajor_val_four]
    show (p.val * 128 + q.val) * 1 + 0 = ((p.val * 128 + q.val) * 1 + 0) * 1 + 0
    omega
  -- the sum over the third axis: over h, of [8, 128, 32, 1] at (p, q, h, 0)
  refine (Ideal.multiReduction_add_single _ _ _ _ _ (ix3 p q (0 : Fin 1))).trans ?_
  show ∑ h : Fin 32, _ = _
  refine Finset.sum_congr rfl fun h _ => ?_
  -- [8, 128, 32, 1] at (p, q, h, 0) reads [8, 128, 32] at (p, q, h)
  refine (shapeCast_apply _ _ _ (ix3 p q h) ?_).trans ?_
  · rw [Shape.rowMajor_val_three, Shape.rowMajor_val_four]
    show (p.val * 128 + q.val) * 32 + h.val = ((p.val * 128 + q.val) * 32 + h.val) * 1 + 0
    omega
  -- the sum over the last axis: over w, of the block at (p, q, h, w)
  refine (Ideal.multiReduction_add_single _ _ _ _ _ (ix3 p q h)).trans ?_
  show ∑ w : Fin 32, _ = _
  refine Finset.sum_congr rfl fun w _ => congrArg x0 ?_
  funext a
  match a with
  | ⟨0, _⟩ => rfl
  | ⟨1, _⟩ => rfl
  | ⟨2, _⟩ => rfl
  | ⟨3, _⟩ => rfl

/-- The same at any index j of the [8, 128, 1, 1] block: its last two coordinates can only be 0. -/
theorem payload_at (x0 : Vec Ideal S8x128x32x32 .f32) (j : S8x128x1x1.Idx) :
    Gen.k0_pay1 (F := Ideal) x0 j = ∑ h : Fin 32, ∑ w : Fin 32, x0 (ix4 (j 0) (j 1) h w) := by
  have hj : j = ix4 (j 0) (j 1) (0 : Fin 1) (0 : Fin 1) := by
    funext a
    match a with
    | ⟨0, _⟩ => rfl
    | ⟨1, _⟩ => rfl
    | ⟨2, _⟩ => exact Fin.ext (by have h2 : (j 2).val < 1 := (j 2).isLt; show (j 2).val = 0; omega)
    | ⟨3, _⟩ => exact Fin.ext (by have h3 : (j 3).val < 1 := (j 3).isLt; show (j 3).val = 0; omega)
  exact (congrArg (Gen.k0_pay1 (F := Ideal) x0) hj).trans (payload_apply x0 (j 0) (j 1))

/-! ## From the blocks to the array -/

theorem offsets_zero : (![0, 0, 0, 0] : Fin 4 → Nat) = fun _ => 0 := funext fun a => by fin_cases a <;> rfl

/-- The table of plane sums of a [32, 512, 32, 32] array, laid out as a [32, 512, 1, 1] array. -/
abbrev planes (A : Cert.Spec.Arr4) : S32x512x1x1.Idx → EReal := fun i => Cert.Spec.planeSum A (i 0) (i 1)

/-- The two block index maps over the grid: on the sample and channel axes the input's block moves with the output's,
    on the row and column axes both stay at 0, and the output's block indices are at most 3. -/
theorem index_facts : ∀ t : Fin cfg0.N, win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 3 ∧ win0_1.index t (1 : Fin 4) ≤ 3 :=
  (by decide +kernel : ∀ t : Fin grid0.N, _)

/-- Every block index (a, b, 0, 0) with a, b < 4 is some point's. -/
theorem index_onto : ∀ (a b : Fin 4), ∃ t : Fin cfg0.N, win0_1.index t = ![a.val, b.val, 0, 0] :=
  (by decide +kernel : ∀ (a b : Fin 4), ∃ t : Fin grid0.N, win0_1.index t = ![a.val, b.val, 0, 0])

/-- What the point t writes back is the block t of the table of plane sums of the input array as the region finds it:
    the entry (p, q, 0, 0) sums the input block over rows and columns, and the input block's entry (p, q, h, w) is the
    array's entry on the same sample and channel as the output block's entry (p, q, 0, 0), at row h and column w. -/
theorem flushed_eq (V : (c : Dev nD) → (b : Ref sig .tc) → Buf (Elt Ideal) ((c : Thread nD τ).loc b)) (c : Dev nD)
    (t : Fin cfg0.N) :
    (Gen.dat0 (F := Ideal) V c).flushed 1 t
      = ((cfg0.win 1).blk t).view.read (Elt Ideal) (planes (V c main_arg0)) := by
  show (cfg0.win 1).cut (grid0.coords t) ((Gen.dat0 (F := Ideal) V c).after 1 t) = _
  rw [Gen.after0_1]
  unfold Gen.out0_1
  rw [View.canon_unit_zero offsets_zero]
  simp only [View.ld_unit_zero (S := S8x128x32x32) offsets_zero]
  funext j
  show Gen.k0_pay1 (F := Ideal) (Gen.iblk0 V c 0 t) j = planes (V c main_arg0) (((cfg0.win 1).blk t).view.emb j)
  refine (payload_at (Gen.iblk0 V c 0 t) j).trans ?_
  show ∑ h : Fin 32, ∑ w : Fin 32, _ = ∑ h : Fin 32, ∑ w : Fin 32, _
  refine Finset.sum_congr rfl fun h _ => Finset.sum_congr rfl fun w _ => ?_
  show V c main_arg0 (((cfg0.win 0).blk t).view.emb (ix4 (j 0) (j 1) h w))
    = V c main_arg0 (ix4 ((((cfg0.win 1).blk t).view.emb j) 0) ((((cfg0.win 1).blk t).view.emb j) 1) h w)
  refine congrArg (V c main_arg0) ?_
  obtain ⟨e0, e1, e2, e3, e4, e5, e6, e7⟩ := index_facts t
  funext a
  apply Fin.ext
  match a with
  | ⟨0, _⟩ => show win0_0.index t (0 : Fin 4) * 8 + 1 * (j 0).val = win0_1.index t (0 : Fin 4) * 8 + 1 * (j 0).val; omega
  | ⟨1, _⟩ => show win0_0.index t (1 : Fin 4) * 128 + 1 * (j 1).val = win0_1.index t (1 : Fin 4) * 128 + 1 * (j 1).val; omega
  | ⟨2, _⟩ => show win0_0.index t (2 : Fin 4) * 32 + 1 * h.val = h.val; omega
  | ⟨3, _⟩ => show win0_0.index t (3 : Fin 4) * 32 + 1 * w.val = w.val; omega

/-- An index of the [32, 512, 1, 1] array is in the point t's block iff each coordinate is in the block's range on
    its axis. -/
theorem mem_blk (t : Fin cfg0.N) (i : S32x512x1x1.Idx) :
    i ∈ ((cfg0.win 1).blk t).view.set ↔ ∀ a : Fin 4, win0_1.index t a * S8x128x1x1.size a ≤ (i a).val
      ∧ (i a).val < win0_1.index t a * S8x128x1x1.size a + S8x128x1x1.size a := by
  show i ∈ ((View.whole main_v0).slice (win0_1.rect t)).set ↔ _
  rw [View.set_slice_whole, Rect.mem_set_unit]
  exact Iff.rfl

/-- Every index (n, c, 0, 0) lies in the block of the point (n / 8, c / 128), and every point writes its block back. -/
theorem cover (i : S32x512x1x1.Idx) :
    ∃ t : Fin cfg0.N, (cfg0.win 1).flush t = true ∧ i ∈ ((cfg0.win 1).blk t).view.set := by
  have hi0 : (i 0).val < 32 := (i 0).isLt
  have hi1 : (i 1).val < 512 := (i 1).isLt
  have hi2 : (i 2).val < 1 := (i 2).isLt
  have hi3 : (i 3).val < 1 := (i 3).isLt
  obtain ⟨t, ht⟩ := index_onto ⟨(i 0).val / 8, by omega⟩ ⟨(i 1).val / 128, by omega⟩
  have q0 : win0_1.index t (0 : Fin 4) = (i 0).val / 8 := congrFun ht 0
  have q1 : win0_1.index t (1 : Fin 4) = (i 1).val / 128 := congrFun ht 1
  have q2 : win0_1.index t (2 : Fin 4) = 0 := congrFun ht 2
  have q3 : win0_1.index t (3 : Fin 4) = 0 := congrFun ht 3
  refine ⟨t, Gen.flush0_1 t, ?_⟩
  rw [mem_blk]
  intro a
  match a with
  | ⟨0, _⟩ => show win0_1.index t (0 : Fin 4) * 8 ≤ (i 0).val ∧ (i 0).val < win0_1.index t (0 : Fin 4) * 8 + 8; omega
  | ⟨1, _⟩ => show win0_1.index t (1 : Fin 4) * 128 ≤ (i 1).val ∧ (i 1).val < win0_1.index t (1 : Fin 4) * 128 + 128; omega
  | ⟨2, _⟩ => show win0_1.index t (2 : Fin 4) * 1 ≤ (i 2).val ∧ (i 2).val < win0_1.index t (2 : Fin 4) * 1 + 1; omega
  | ⟨3, _⟩ => show win0_1.index t (3 : Fin 4) * 1 ≤ (i 3).val ∧ (i 3).val < win0_1.index t (3 : Fin 4) * 1 + 1; omega

/-- After all sixteen points, the entry (n, c, 0, 0) of the region's output array is the plane sum of the input array
    at (n, c): the sum over rows h of the sums over columns w of its entries (n, c, h, w). -/
theorem region0_out (V : (c : Dev nD) → (b : Ref sig .tc) → Buf (Elt Ideal) ((c : Thread nD τ).loc b)) (c : Dev nD)
    (i : S32x512x1x1.Idx) :
    (Gen.dat0 (F := Ideal) V c).arrAt 1 cfg0.N i = Cert.Spec.planeSum (V c main_arg0) (i 0) (i 1) :=
  congrFun ((Gen.dat0 (F := Ideal) V c).arrAt_eq_of_cover 1 (planes (V c main_arg0))
    (fun t _ => flushed_eq V c t) cover) i

end Cert.KernelIdeal.PlaneSums

end
-- ==== Proof.AffineBlocks.lean ====
/-
  What the per-channel affine map leaves in its result array.

  The array `x` of extents [32, 512, 32, 32] is cut into 4 × 4 blocks of extents [8, 128, 32, 32]: the block of the
  point (a, b) holds the samples 8a … 8a + 7 and the channels 128b … 128b + 127, with every row and column. The
  multiplier `s` and the offset `t`, of extents [1, 512, 1, 1], are cut along the channel axis alone into blocks
  [1, 128, 1, 1], and the point (a, b) reads their block b. On its blocks the point computes, entry by entry,
  `x · s + t` with `s` and `t` repeated along the sample, row and column axes, and writes the result into block
  (a, b) of the result array.

  Entry (p, q, h, w) of the block of point (a, b) is entry (8a + p, 128b + q, h, w) of the array, and entry
  (0, q, 0, 0) of block b of `s` or `t` is entry (0, 128b + q, 0, 0) of `s` or `t`: the channel read from `s` and
  `t` is the channel of the entry of `x`. So each point writes its block of the one function
  `i ↦ x i · s (0, i₁, 0, 0) + t (0, i₁, 0, 0)`, and since the entry (n, c, h, w) lies in the block of the point
  (n / 8, c / 128), the sixteen blocks fill the array: after the last point the array is that function.
-/
import proofs.«113589_j72859825209967_2_alg».proof.Proof.Gen.KernelIdeal.Frame
import proofs.«113589_j72859825209967_2_alg».proof.Proof.Spec
import Idealize.ShloMosaic.Lib.Pipeline.Value

set_option maxRecDepth 16384

noncomputable section

namespace Cert.KernelIdeal.AffineBlocks
open Idealize.ShloMosaic Idealize.ShloMosaic.TcCoe Idealize.SL.Sem Idealize.ShloMosaic.ValueIdx Cert.KernelIdeal Cert.KernelIdeal.Gen

/-! ## One block: the arithmetic at an entry -/

/-- The offsets of a whole-block access are all zero. -/
theorem zero_offsets : (![0, 0, 0, 0] : Fin 4 → Nat) = fun _ => 0 := funext fun a => by fin_cases a <;> rfl

/-- On blocks `x0` of extents [8, 128, 32, 32] and `x1`, `x2` of extents [1, 128, 1, 1], the entry (p, q, h, w) of the
    computed block is `x0 (p, q, h, w) · x1 (0, q, 0, 0) + x2 (0, q, 0, 0)`: the casts of `x1` and `x2` to their own
    shape change nothing, and repeating them along the sample, row and column axes reads their channel `q`. -/
theorem body_at (x0 : Vec Ideal S8x128x32x32 .f32) (x1 x2 : Vec Ideal S1x128x1x1 .f32)
    (p : Fin 8) (q : Fin 128) (h w : Fin 32) :
    Gen.k1_pay1 x0 x1 x2 (ix4 p q h w) = x0 (ix4 p q h w) * x1 (ix4 0 q 0 0) + x2 (ix4 0 q 0 0) := by
  unfold Gen.k1_pay1
  rw [addf_apply, mulf_apply, shapeCast_self, shapeCast_self]
  rw [broadcastTo_apply x1 _ (ix4 p q h w) (ix4 0 q 0 0) (fun a => by
        match a with
        | ⟨0, _⟩ => rfl
        | ⟨1, _⟩ => rfl
        | ⟨2, _⟩ => rfl
        | ⟨3, _⟩ => rfl),
      broadcastTo_apply x2 _ (ix4 p q h w) (ix4 0 q 0 0) (fun a => by
        match a with
        | ⟨0, _⟩ => rfl
        | ⟨1, _⟩ => rfl
        | ⟨2, _⟩ => rfl
        | ⟨3, _⟩ => rfl)]

/-- If entry (p, q, h, w) of `x0` is entry `i` of an array `A0`, and entry (0, q, 0, 0) of `x1` and of `x2` is entry
    (0, i₁, 0, 0) of arrays `A1` and `A2`, then the computed block at (p, q, h, w) is the affine map of `A0`, `A1`,
    `A2` at `i`. -/
theorem point_value (A0 : S32x512x32x32.Idx → EReal) (A1 A2 : S1x512x1x1.Idx → EReal)
    (x0 : Vec Ideal S8x128x32x32 .f32) (x1 x2 : Vec Ideal S1x128x1x1 .f32)
    (p : Fin 8) (q : Fin 128) (h w : Fin 32) (i : S32x512x32x32.Idx)
    (h0 : x0 (ix4 p q h w) = A0 i)
    (h1 : x1 (ix4 0 q 0 0) = A1 (ix4 (0 : Fin 1) (i 1) (0 : Fin 1) (0 : Fin 1)))
    (h2 : x2 (ix4 0 q 0 0) = A2 (ix4 (0 : Fin 1) (i 1) (0 : Fin 1) (0 : Fin 1))) :
    Gen.k1_pay1 x0 x1 x2 (ix4 p q h w) = Cert.Spec.affine A0 A1 A2 i := by
  rw [body_at, h0, h1, h2]
  rfl

/-! ## The sixteen points: which block each one reads and writes -/

/-- At every point the block of `x` read is the block of the result written; the blocks of the multiplier and of the
    offset are at the same channel block and at zero on the three unit axes; the row and column block indices are
    zero; the sample and channel block indices are at most 3. -/
theorem index_relations : ∀ t : Fin cfg1.N,
    win1_0.index t (0 : Fin 4) = win1_3.index t (0 : Fin 4)
    ∧ win1_0.index t (1 : Fin 4) = win1_3.index t (1 : Fin 4)
    ∧ win1_0.index t (2 : Fin 4) = 0 ∧ win1_0.index t (3 : Fin 4) = 0
    ∧ win1_1.index t (0 : Fin 4) = 0 ∧ win1_1.index t (1 : Fin 4) = win1_3.index t (1 : Fin 4)
    ∧ win1_1.index t (2 : Fin 4) = 0 ∧ win1_1.index t (3 : Fin 4) = 0
    ∧ win1_2.index t (0 : Fin 4) = 0 ∧ win1_2.index t (1 : Fin 4) = win1_3.index t (1 : Fin 4)
    ∧ win1_2.index t (2 : Fin 4) = 0 ∧ win1_2.index t (3 : Fin 4) = 0
    ∧ win1_3.index t (2 : Fin 4) = 0 ∧ win1_3.index t (3 : Fin 4) = 0
    ∧ win1_3.index t (0 : Fin 4) ≤ 3 ∧ win1_3.index t (1 : Fin 4) ≤ 3 :=
  (by decide +kernel : ∀ t : Fin grid1.N, _)

/-- Every pair (a, b) of a sample block and a channel block is the result block of some point. -/
theorem block_onto : ∀ (a b : Fin 4), ∃ t : Fin cfg1.N, win1_3.index t = ![a.val, b.val, 0, 0] :=
  (by decide +kernel : ∀ (a b : Fin 4), ∃ t : Fin grid1.N, win1_3.index t = ![a.val, b.val, 0, 0])

/-- What point `t` writes back is block `t` of the affine map of the three arrays as the region finds them: a block's
    entry sits in its array at block index × block extent + the coordinate inside the block, on every axis. -/
theorem flushed_eq (V : (c : Dev nD) → (b : Ref sig .tc) → Buf (Elt Ideal) ((c : Thread nD τ).loc b)) (c : Dev nD)
    (t : Fin cfg1.N) :
    (Gen.dat1 (F := Ideal) V c).flushed 3 t
      = ((cfg1.win 3).blk t).view.read (Elt Ideal) (Cert.Spec.affine (V c main_arg0) (V c main_v18) (V c main_v19)) := by
  show (cfg1.win 3).cut (grid1.coords t) ((dat1 V c).after 3 t) = _
  rw [after1_3]
  unfold out1_3
  rw [View.canon_unit_zero zero_offsets]
  simp only [View.ld_unit_zero (S := S8x128x32x32) zero_offsets, View.ld_unit_zero (S := S1x128x1x1) zero_offsets]
  funext j
  obtain ⟨p, q, h, w, rfl⟩ : ∃ (p : Fin 8) (q : Fin 128) (h w : Fin 32), j = ix4 p q h w :=
    ⟨j 0, j 1, j 2, j 3, eq_ix4 j⟩
  show k1_pay1 (iblk1 V c 0 t) (iblk1 V c 1 t) (iblk1 V c 2 t) (ix4 p q h w)
    = Cert.Spec.affine (V c main_arg0) (V c main_v18) (V c main_v19) (((cfg1.win 3).blk t).view.emb (ix4 p q h w))
  obtain ⟨a00, a01, a02, a03, a10, a11, a12, a13, a20, a21, a22, a23, a32, a33, b0, b1⟩ := index_relations t
  refine point_value (V c main_arg0) (V c main_v18) (V c main_v19) (iblk1 V c 0 t) (iblk1 V c 1 t) (iblk1 V c 2 t)
    p q h w _ ?_ ?_ ?_
  · show V c main_arg0 (((cfg1.win 0).blk t).view.emb (ix4 p q h w)) = _
    refine congrArg (V c main_arg0) (funext fun a => Fin.ext ?_)
    match a with
    | ⟨0, _⟩ => show win1_0.index t (0 : Fin 4) * 8 + 1 * p.val = win1_3.index t (0 : Fin 4) * 8 + 1 * p.val; omega
    | ⟨1, _⟩ => show win1_0.index t (1 : Fin 4) * 128 + 1 * q.val = win1_3.index t (1 : Fin 4) * 128 + 1 * q.val; omega
    | ⟨2, _⟩ => show win1_0.index t (2 : Fin 4) * 32 + 1 * h.val = win1_3.index t (2 : Fin 4) * 32 + 1 * h.val; omega
    | ⟨3, _⟩ => show win1_0.index t (3 : Fin 4) * 32 + 1 * w.val = win1_3.index t (3 : Fin 4) * 32 + 1 * w.val; omega
  · show V c main_v18 (((cfg1.win 1).blk t).view.emb (ix4 0 q 0 0)) = _
    refine congrArg (V c main_v18) (funext fun a => Fin.ext ?_)
    match a with
    | ⟨0, _⟩ => show win1_1.index t (0 : Fin 4) * 1 + 1 * 0 = 0; omega
    | ⟨1, _⟩ => show win1_1.index t (1 : Fin 4) * 128 + 1 * q.val = win1_3.index t (1 : Fin 4) * 128 + 1 * q.val; omega
    | ⟨2, _⟩ => show win1_1.index t (2 : Fin 4) * 1 + 1 * 0 = 0; omega
    | ⟨3, _⟩ => show win1_1.index t (3 : Fin 4) * 1 + 1 * 0 = 0; omega
  · show V c main_v19 (((cfg1.win 2).blk t).view.emb (ix4 0 q 0 0)) = _
    refine congrArg (V c main_v19) (funext fun a => Fin.ext ?_)
    match a with
    | ⟨0, _⟩ => show win1_2.index t (0 : Fin 4) * 1 + 1 * 0 = 0; omega
    | ⟨1, _⟩ => show win1_2.index t (1 : Fin 4) * 128 + 1 * q.val = win1_3.index t (1 : Fin 4) * 128 + 1 * q.val; omega
    | ⟨2, _⟩ => show win1_2.index t (2 : Fin 4) * 1 + 1 * 0 = 0; omega
    | ⟨3, _⟩ => show win1_2.index t (3 : Fin 4) * 1 + 1 * 0 = 0; omega

/-! ## The blocks fill the array -/

/-- An index of the array is in point `t`'s result block iff each coordinate is in the block's range on its axis. -/
theorem mem_block (t : Fin cfg1.N) (i : S32x512x32x32.Idx) :
    i ∈ ((cfg1.win 3).blk t).view.set ↔ ∀ a : Fin 4, win1_3.index t a * S8x128x32x32.size a ≤ (i a).val
      ∧ (i a).val < win1_3.index t a * S8x128x32x32.size a + S8x128x32x32.size a := by
  show i ∈ ((View.whole main_v20).slice (win1_3.rect t)).set ↔ _
  rw [View.set_slice_whole, Rect.mem_set_unit]
  exact Iff.rfl

/-- Entry (n, c, h, w) lies in the result block of the point whose sample block is n / 8 and whose channel block is
    c / 128, and that point writes its block back. -/
theorem covered (i : S32x512x32x32.Idx) :
    ∃ t : Fin cfg1.N, (cfg1.win 3).flush t = true ∧ i ∈ ((cfg1.win 3).blk t).view.set := by
  have hi0 : (i 0).val < 32 := (i 0).isLt
  have hi1 : (i 1).val < 512 := (i 1).isLt
  have hi2 : (i 2).val < 32 := (i 2).isLt
  have hi3 : (i 3).val < 32 := (i 3).isLt
  obtain ⟨t, ht⟩ := block_onto ⟨(i 0).val / 8, by omega⟩ ⟨(i 1).val / 128, by omega⟩
  have q0 : win1_3.index t (0 : Fin 4) = (i 0).val / 8 := congrFun ht 0
  have q1 : win1_3.index t (1 : Fin 4) = (i 1).val / 128 := congrFun ht 1
  have q2 : win1_3.index t (2 : Fin 4) = 0 := congrFun ht 2
  have q3 : win1_3.index t (3 : Fin 4) = 0 := congrFun ht 3
  refine ⟨t, flush1_3 t, ?_⟩
  rw [mem_block]
  intro a
  match a with
  | ⟨0, _⟩ => show win1_3.index t (0 : Fin 4) * 8 ≤ (i 0).val ∧ (i 0).val < win1_3.index t (0 : Fin 4) * 8 + 8; omega
  | ⟨1, _⟩ => show win1_3.index t (1 : Fin 4) * 128 ≤ (i 1).val ∧ (i 1).val < win1_3.index t (1 : Fin 4) * 128 + 128; omega
  | ⟨2, _⟩ => show win1_3.index t (2 : Fin 4) * 32 ≤ (i 2).val ∧ (i 2).val < win1_3.index t (2 : Fin 4) * 32 + 32; omega
  | ⟨3, _⟩ => show win1_3.index t (3 : Fin 4) * 32 ≤ (i 3).val ∧ (i 3).val < win1_3.index t (3 : Fin 4) * 32 + 32; omega

/-- After all sixteen points, entry `i` = (n, c, h, w) of the result array is the entry of `x` at `i` times the
    multiplier at (0, c, 0, 0) plus the offset at (0, c, 0, 0), the three arrays as the region finds them. -/
theorem region1_out (V : (c : Dev nD) → (b : Ref sig .tc) → Buf (Elt Ideal) ((c : Thread nD τ).loc b)) (c : Dev nD)
    (i : S32x512x32x32.Idx) :
    (Gen.dat1 (F := Ideal) V c).arrAt 3 cfg1.N i = Cert.Spec.affine (V c main_arg0) (V c main_v18) (V c main_v19) i :=
  congrFun ((Gen.dat1 (F := Ideal) V c).arrAt_eq_of_cover 3
    (Cert.Spec.affine (V c main_arg0) (V c main_v18) (V c main_v19))
    (fun t _ => flushed_eq V c t) covered) i

end Cert.KernelIdeal.AffineBlocks

end
-- ==== Proof.KernelValue.lean ====
/-
  The idealized kernel's result, index by index.

  The first region leaves in its output array the plane sums of the input, and leaves the three argument arrays as
  launched. The host operations turn the plane sums, the gain and the offset into the per-channel multiplier and
  offset. The second region leaves in the result array, at (n, c, h, w), the input there times the multiplier of
  channel c plus the offset of channel c. Together: the result is the plane-sums-first arrangement `outP` of the
  launch arrays.
-/
import proofs.«113589_j72859825209967_2_alg».proof.Proof.Gen.KernelIdeal.Frame
import proofs.«113589_j72859825209967_2_alg».proof.Proof.Spec
import proofs.«113589_j72859825209967_2_alg».proof.Proof.HostStretch
import proofs.«113589_j72859825209967_2_alg».proof.Proof.HostStagesRead
import proofs.«113589_j72859825209967_2_alg».proof.Proof.PlaneSums
import proofs.«113589_j72859825209967_2_alg».proof.Proof.AffineBlocks

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.HostStretch Cert.Spec

variable (m : (ℓ : Loc nD τ sig) → Buf (Elt Ideal) ℓ) (ρ : Dev nD → PrngReg)

/-- The argument arrays as launched. -/
abbrev argX (c : Dev nD) : Arr4 := m ((c.tc : Thread nD τ).loc main_arg0)
abbrev argG (c : Dev nD) : Arr1 := m ((c.tc : Thread nD τ).loc main_arg1)
abbrev argB (c : Dev nD) : Arr1 := m ((c.tc : Thread nD τ).loc main_arg2)

/-! ## After the first region -/

/-- The first region leaves the input array as launched, -/
theorem first_input (c : Dev nD) : W1 m ρ c (Proc.devRef .tc main_arg0) = argX m c :=
  (W1_arr m ρ c 0).trans (((dat0 (V0 m ρ) c).arrAt_in 0 rfl _).trans (A_eq0 (V0 m ρ) c 0))
/-- the gain and the offset as launched (it does not touch them), -/
theorem first_gain (c : Dev nD) : W1 m ρ c (Proc.devRef .tc main_arg1) = argG m c :=
  W1_of_ne m ρ c main_arg1 (by decide)
theorem first_offset (c : Dev nD) : W1 m ρ c (Proc.devRef .tc main_arg2) = argB m c :=
  W1_of_ne m ρ c main_arg2 (by decide)
/-- and in its output array the plane sums of the input. -/
theorem first_planes (c : Dev nD) :
    planesOf (W1 m ρ c (Proc.devRef .tc main_v0)) = planeSum (argX m c) := by
  funext n ch
  unfold planesOf
  rw [show W1 m ρ c (Proc.devRef .tc main_v0) = (dat0 (V0 m ρ) c).arrAt 1 cfg0.N from W1_arr m ρ c 1]
  exact Cert.KernelIdeal.PlaneSums.region0_out (V0 m ρ) c (ix4 n ch (0 : Fin 1) (0 : Fin 1))

/-! ## After the host operations -/

theorem second_input (c : Dev nD) : V2 m ρ c main_arg0 = argX m c :=
  (after_input (W1 m ρ c)).trans (first_input m ρ c)

theorem second_gain (c : Dev nD) (ch : Fin 512) :
    (V2 m ρ c main_v18 : S1x512x1x1.Idx → EReal) (ix4 (0 : Fin 1) ch (0 : Fin 1) (0 : Fin 1))
      = gainP (planeSum (argX m c)) (argG m c) ch := by
  rw [show V2 m ρ c main_v18 = sGain4 (W1 m ρ c (Proc.devRef .tc main_v0)) (W1 m ρ c (Proc.devRef .tc main_arg1))
    from after_gain (W1 m ρ c), sGain4_apply, first_planes, first_gain]

theorem second_offset (c : Dev nD) (ch : Fin 512) :
    (V2 m ρ c main_v19 : S1x512x1x1.Idx → EReal) (ix4 (0 : Fin 1) ch (0 : Fin 1) (0 : Fin 1))
      = offsetP (planeSum (argX m c)) (argG m c) (argB m c) ch := by
  rw [show V2 m ρ c main_v19 = sOffset4 (W1 m ρ c (Proc.devRef .tc main_v0)) (W1 m ρ c (Proc.devRef .tc main_arg1))
      (W1 m ρ c (Proc.devRef .tc main_arg2)) from after_offset (W1 m ρ c), sOffset4_apply, first_planes, first_gain, first_offset]

/-! ## After the second region -/

/-- The result buffer at the end of the run, index by index: the plane-sums-first arrangement of the launch arrays. -/
theorem result_at (c : Dev nD) (i : S32x512x32x32.Idx) :
    (W3 m ρ c (Proc.devRef .tc main_v20) : S32x512x32x32.Idx → EReal) i
      = outP (argX m c) (argG m c) (argB m c) (i 0) (i 1) (i 2) (i 3) := by
  rw [show W3 m ρ c (Proc.devRef .tc main_v20) = (dat1 (V2 m ρ) c).arrAt 3 cfg1.N from W3_arr m ρ c 3,
    Cert.KernelIdeal.AffineBlocks.region1_out (V2 m ρ) c i]
  unfold affine outP
  exact congrArg₂ (· + ·)
    (congrArg₂ (· * ·) ((congrFun (second_input m ρ c) i).trans (congrArg (argX m c) (eq_ix4 i)))
      (second_gain m ρ c (i 1)))
    (second_offset m ρ c (i 1))

end Cert.KernelIdeal.KernelValue

end
-- ==== Proof.LibReduce4.lean ====
/-
  Sums over several axes of a rank-4 array, read at an index.

  For an array `x` of extents [A, B, C, D] with entries in a commutative additive monoid:
  * the sum of the entries that a reduction over the axes 0, 2 and 3 sends to the index `jb` of [B] is the triple sum
    `∑ a, ∑ c, ∑ d, x (a, jb, c, d)`;
  * the sum of the entries that a reduction over the axes 2 and 3 sends to the index `(ja, jb)` of [A, B] is the
    double sum `∑ c, ∑ d, x (ja, jb, c, d)`.
  Both follow from one fact — a sum over every rank-4 index is the quadruple sum over the coordinates — and from
  reading off which coordinates a reduction keeps: over the axes 0, 2, 3 it keeps coordinate 1; over the axes 2, 3 it
  keeps coordinates 0 and 1, in that order. On the extended reals the host's sum with an initial value is then the
  initial value plus that triple (double) sum.
-/
import Idealize.ShloMosaic.PureOps.Ideal.Laws
import Idealize.ShloMosaic.Lib.ValueIdx

open scoped BigOperators

noncomputable section

namespace Cert.Reduce4

open Idealize.ShloMosaic Idealize.ShloMosaic.ValueIdx

variable {A B C D : Nat}

/-! ## A sum over every rank-4 index is the quadruple sum over the coordinates -/

/-- A rank-4 index set is the product of its four coordinate ranges … -/
def idxEquiv4 : (⟨4, ![A, B, C, D]⟩ : Shape).Idx ≃ Fin A × Fin B × Fin C × Fin D where
  toFun i := (i 0, i 1, i 2, i 3)
  invFun p := ix4 p.1 p.2.1 p.2.2.1 p.2.2.2
  left_inv i := (eq_ix4 i).symm
  right_inv _ := rfl

/-- … so a sum over it is the quadruple sum over the coordinates. -/
theorem sum_idx4 {M : Type*} [AddCommMonoid M] (f : (⟨4, ![A, B, C, D]⟩ : Shape).Idx → M) :
    ∑ i, f i = ∑ a : Fin A, ∑ b : Fin B, ∑ c : Fin C, ∑ d : Fin D, f (ix4 a b c d) := by
  rw [← Equiv.sum_comp (idxEquiv4 (A := A) (B := B) (C := C) (D := D)).symm f]
  simp only [Fintype.sum_prod_type]
  rfl

/-- A condition that does not depend on the summation variable leaves the sum: the sum of `g` where it holds, zero
    where it does not. -/
theorem sum_ite_const {M : Type*} [AddCommMonoid M] {ι : Type*} [Fintype ι] (p : Prop) [Decidable p] (g : ι → M) :
    ∑ k, (if p then g k else 0) = if p then ∑ k, g k else 0 := by
  split_ifs
  · rfl
  · exact Finset.sum_const_zero

/-! ## Which coordinates a reduction keeps -/

/-- A reduction over the axes 0, 2 and 3 keeps coordinate 1: the result's one coordinate is the source's second. -/
theorem drop_023_val (h : (⟨4, ![A, B, C, D]⟩ : Shape).ReducesTo [0, 2, 3] ⟨1, ![B]⟩)
    (i : (⟨4, ![A, B, C, D]⟩ : Shape).Idx) : (h.drop i 0 : Nat) = i 1 := rfl

/-- So the index `(a, b, c, d)` reduces to `jb` exactly when `b = jb`. -/
theorem drop_023_iff (h : (⟨4, ![A, B, C, D]⟩ : Shape).ReducesTo [0, 2, 3] ⟨1, ![B]⟩)
    (a : Fin A) (b : Fin B) (c : Fin C) (d : Fin D) (jb : Fin B) :
    h.drop (ix4 a b c d) = ix1 jb ↔ b = jb := by
  have hv : (h.drop (ix4 a b c d) 0 : Nat) = b.val := drop_023_val h _
  constructor
  · intro e
    have e0 : (h.drop (ix4 a b c d) 0 : Nat) = jb.val := congrArg (fun j => (j 0 : Nat)) e
    exact Fin.ext (hv.symm.trans e0)
  · rintro rfl
    funext k
    match k with
    | ⟨0, _⟩ => exact Fin.ext hv

/-- A reduction over the axes 2 and 3 keeps coordinates 0 and 1, in that order. -/
theorem drop_23_val0 (h : (⟨4, ![A, B, C, D]⟩ : Shape).ReducesTo [2, 3] ⟨2, ![A, B]⟩)
    (i : (⟨4, ![A, B, C, D]⟩ : Shape).Idx) : (h.drop i 0 : Nat) = i 0 := rfl
theorem drop_23_val1 (h : (⟨4, ![A, B, C, D]⟩ : Shape).ReducesTo [2, 3] ⟨2, ![A, B]⟩)
    (i : (⟨4, ![A, B, C, D]⟩ : Shape).Idx) : (h.drop i 1 : Nat) = i 1 := rfl

/-- So the index `(a, b, c, d)` reduces to `(ja, jb)` exactly when `a = ja` and `b = jb`. -/
theorem drop_23_iff (h : (⟨4, ![A, B, C, D]⟩ : Shape).ReducesTo [2, 3] ⟨2, ![A, B]⟩)
    (a : Fin A) (b : Fin B) (c : Fin C) (d : Fin D) (ja : Fin A) (jb : Fin B) :
    h.drop (ix4 a b c d) = ix2 ja jb ↔ a = ja ∧ b = jb := by
  have hv0 : (h.drop (ix4 a b c d) 0 : Nat) = a.val := drop_23_val0 h _
  have hv1 : (h.drop (ix4 a b c d) 1 : Nat) = b.val := drop_23_val1 h _
  constructor
  · intro e
    have e0 : (h.drop (ix4 a b c d) 0 : Nat) = ja.val := congrArg (fun j => (j 0 : Nat)) e
    have e1 : (h.drop (ix4 a b c d) 1 : Nat) = jb.val := congrArg (fun j => (j 1 : Nat)) e
    exact ⟨Fin.ext (hv0.symm.trans e0), Fin.ext (hv1.symm.trans e1)⟩
  · rintro ⟨rfl, rfl⟩
    funext k
    match k with
    | ⟨0, _⟩ => exact Fin.ext hv0
    | ⟨1, _⟩ => exact Fin.ext hv1

/-! ## The two sums -/

/-- Over the axes 0, 2 and 3: the entries that reduce to `jb`, summed, are `∑ a, ∑ c, ∑ d, x (a, jb, c, d)`. -/
theorem sum_filter_drop_023 {M : Type*} [AddCommMonoid M]
    (h : (⟨4, ![A, B, C, D]⟩ : Shape).ReducesTo [0, 2, 3] ⟨1, ![B]⟩)
    (x : (⟨4, ![A, B, C, D]⟩ : Shape).Idx → M) (jb : Fin B) [DecidablePred fun i => h.drop i = ix1 jb] :
    ∑ i ∈ Finset.univ.filter (fun i => h.drop i = ix1 jb), x i
      = ∑ a : Fin A, ∑ c : Fin C, ∑ d : Fin D, x (ix4 a jb c d) := by
  rw [Finset.sum_filter, sum_idx4]
  refine Finset.sum_congr rfl fun a _ => ?_
  simp only [drop_023_iff h, sum_ite_const]
  rw [Finset.sum_ite_eq', if_pos (Finset.mem_univ jb)]

/-- Over the axes 2 and 3: the entries that reduce to `(ja, jb)`, summed, are `∑ c, ∑ d, x (ja, jb, c, d)`. -/
theorem sum_filter_drop_23 {M : Type*} [AddCommMonoid M]
    (h : (⟨4, ![A, B, C, D]⟩ : Shape).ReducesTo [2, 3] ⟨2, ![A, B]⟩)
    (x : (⟨4, ![A, B, C, D]⟩ : Shape).Idx → M) (ja : Fin A) (jb : Fin B)
    [DecidablePred fun i => h.drop i = ix2 ja jb] :
    ∑ i ∈ Finset.univ.filter (fun i => h.drop i = ix2 ja jb), x i
      = ∑ c : Fin C, ∑ d : Fin D, x (ix4 ja jb c d) := by
  rw [Finset.sum_filter, sum_idx4]
  simp only [drop_23_iff h, ite_and, sum_ite_const]
  rw [Finset.sum_ite_eq', if_pos (Finset.mem_univ ja), Finset.sum_ite_eq', if_pos (Finset.mem_univ jb)]

/-! ## The host's sum with an initial value, on the extended reals -/

/-- The host's sum over the axes 0, 2 and 3 at `jb`: the initial value plus `∑ a, ∑ c, ∑ d, x (a, jb, c, d)`. -/
theorem hostReduceAdd_023 (h : (⟨4, ![A, B, C, D]⟩ : Shape).ReducesTo [0, 2, 3] ⟨1, ![B]⟩)
    (x : (⟨4, ![A, B, C, D]⟩ : Shape).Idx → EReal) (init : EReal) (jb : Fin B) :
    Ideal.hostReduceAdd h x init (ix1 jb) = init + ∑ a : Fin A, ∑ c : Fin C, ∑ d : Fin D, x (ix4 a jb c d) := by
  unfold Ideal.hostReduceAdd
  rw [sum_filter_drop_023 h x jb]

/-- The host's sum over the axes 2 and 3 at `(ja, jb)`: the initial value plus `∑ c, ∑ d, x (ja, jb, c, d)`. -/
theorem hostReduceAdd_23 (h : (⟨4, ![A, B, C, D]⟩ : Shape).ReducesTo [2, 3] ⟨2, ![A, B]⟩)
    (x : (⟨4, ![A, B, C, D]⟩ : Shape).Idx → EReal) (init : EReal) (ja : Fin A) (jb : Fin B) :
    Ideal.hostReduceAdd h x init (ix2 ja jb) = init + ∑ c : Fin C, ∑ d : Fin D, x (ix4 ja jb c d) := by
  unfold Ideal.hostReduceAdd
  rw [sum_filter_drop_23 h x ja jb]

end Cert.Reduce4

end
-- ==== Proof.RefValue.lean ====
/-
  The reference program's result, read at an index, is the entries-centred-first arrangement `Cert.Spec.outE`.

  The program is read one operation at a time. Per channel `c`:
  * the sum of `x` over samples, rows and columns (from the word `0`), divided by the word `32768`, is the channel
    mean `meanE x c`, and it is broadcast back over the other three axes;
  * `x` minus that broadcast is the centred entry `centredE x n c h w`;
  * the sum of the centred entries over rows and columns (from the word `0`) is `planeSumE x n c`;
  * the sum over samples of the squared plane sums (from the word `0`), divided by the word `1024`, is `quadE x c`;
  * its absolute value `max q (-q)`, reshaped and broadcast, multiplies the centred entry, the gain `g c` multiplies
    that product, and the offset `b c` is added.
  The two sums over several axes are read by the rank-4 lemmas of `Cert.Reduce4`; every other operation reads at an
  index by its own lemma, once the index it reads its operand at is written by coordinates.
-/
import proofs.«113589_j72859825209967_2_alg».proof.Proof.Gen.ReferenceIdeal.Read
import proofs.«113589_j72859825209967_2_alg».proof.Proof.Spec
import proofs.«113589_j72859825209967_2_alg».proof.Proof.LibReduce4

open scoped BigOperators

noncomputable section

namespace Cert.ReferenceIdeal.RefValue
open Idealize.ShloMosaic Idealize.ShloMosaic.TcCoe Idealize.SL.Sem Idealize.ShloMosaic.ValueIdx Cert.ReferenceIdeal Cert.ReferenceIdeal.Gen

variable (x : (⟨S32x512x32x32, .f32⟩ : BufTy).Contents (Elt Ideal))

/-! ## The indices the layout operations read their operands at, by coordinates -/

/-- A broadcast of a [1, 512, 1, 1] array over [32, 512, 32, 32] reads it at `(0, c, 0, 0)`. -/
theorem idx_bcast (n : Fin 32) (c : Fin 512) (h w : Fin 32) :
    Read.idx_main_v4 (ix4 n c h w) = ix4 (0 : Fin 1) c (0 : Fin 1) (0 : Fin 1) :=
  funext fun a => Fin.ext (by match a with | ⟨0, _⟩ => rfl | ⟨1, _⟩ => rfl | ⟨2, _⟩ => rfl | ⟨3, _⟩ => rfl)

/-- A reshape of a [512] vector to [1, 512, 1, 1] reads it at `c`: the row-major position of `(0, c, 0, 0)`. -/
theorem idx_reshape (c : Fin 512) :
    Read.idx_main_v12 (ix4 (0 : Fin 1) c (0 : Fin 1) (0 : Fin 1)) = ix1 c :=
  funext fun a => Fin.ext (by
    match a with
    | ⟨0, _⟩ => show ((0 * 512 + c.val) * 1 + 0) * 1 + 0 = c.val; omega)

/-! ## The channel mean -/

/-- The sum over samples, rows and columns, from the word `0`. -/
theorem total_at (c : Fin 512) :
    Read.val_main_v0 (F := Ideal) x (ix1 c)
      = Spec.w0 + ∑ n : Fin 32, ∑ h : Fin 32, ∑ w : Fin 32, x (ix4 n c h w) := by
  unfold Read.val_main_v0
  simp only [Host.reduceAdd, Ideal.hostReduceAdd_def]
  exact Cert.Reduce4.hostReduceAdd_023 _ x _ c

/-- Divided by the word `32768`: the channel mean, as a [1, 512, 1, 1] array. -/
theorem mean_at (c : Fin 512) :
    Read.val_main_v3 (F := Ideal) x (ix4 (0 : Fin 1) c (0 : Fin 1) (0 : Fin 1)) = Spec.meanE x c := by
  have e1 : Read.idx_main_v1 (ix4 (0 : Fin 1) c (0 : Fin 1) (0 : Fin 1)) = ix1 c :=
    funext fun a => Fin.ext (by match a with | ⟨0, _⟩ => rfl)
  rw [Read.val_main_v3_apply, Read.val_main_v1_apply, Read.val_main_v2_apply, Read.val_main_cst_0_apply, e1, total_at]
  rfl

/-- Broadcast back over samples, rows and columns. -/
theorem mean_bcast_at (n : Fin 32) (c : Fin 512) (h w : Fin 32) :
    Read.val_main_v4 (F := Ideal) x (ix4 n c h w) = Spec.meanE x c := by
  rw [Read.val_main_v4_apply, idx_bcast, mean_at]

/-! ## The centred entries and their plane sums -/

/-- An entry minus its channel mean. -/
theorem centred_at (n : Fin 32) (c : Fin 512) (h w : Fin 32) :
    Read.val_main_v5 (F := Ideal) x (ix4 n c h w) = Spec.centredE x n c h w := by
  rw [Read.val_main_v5_apply, mean_bcast_at]
  rfl

/-- The sum of the centred entries of one plane, from the word `0`. -/
theorem planeSum_at (n : Fin 32) (c : Fin 512) :
    Read.val_main_v6 (F := Ideal) x (ix2 n c) = Spec.planeSumE x n c := by
  unfold Read.val_main_v6
  simp only [Host.reduceAdd, Ideal.hostReduceAdd_def]
  refine (Cert.Reduce4.hostReduceAdd_23 _ (Read.val_main_v5 (F := Ideal) x) _ n c).trans ?_
  simp only [centred_at]
  rfl

/-! ## The quadratic quantity and its absolute value -/

/-- The sum over samples of the squared plane sums, from the word `0`, divided by the word `1024`. -/
theorem quad_at (c : Fin 512) : Read.val_main_v10 (F := Ideal) x (ix1 c) = Spec.quadE x c := by
  have e8 : ∀ k : Fin 32, Read.idx_main_v8 (ix1 c) k = ix2 k c := fun k =>
    funext fun a => Fin.ext (by match a with | ⟨0, _⟩ => rfl | ⟨1, _⟩ => rfl)
  rw [Read.val_main_v10_apply, Read.val_main_v8_apply, Read.val_main_v9_apply, Read.val_main_cst_3_apply,
    Read.val_main_cst_2_apply]
  simp only [Read.val_main_v7_apply, e8, planeSum_at]
  rfl

/-- Its absolute value, reshaped to [1, 512, 1, 1] and broadcast over samples, rows and columns. -/
theorem abs_bcast_at (n : Fin 32) (c : Fin 512) (h w : Fin 32) :
    Read.val_main_v13 (F := Ideal) x (ix4 n c h w) = max (Spec.quadE x c) (-(Spec.quadE x c)) := by
  have e13 : Read.idx_main_v13 (ix4 n c h w) = ix4 (0 : Fin 1) c (0 : Fin 1) (0 : Fin 1) := idx_bcast n c h w
  rw [Read.val_main_v13_apply, e13, Read.val_main_v12_apply, idx_reshape, Read.val_main_v11_apply, quad_at]
  rfl

/-! ## The gain and the offset -/

/-- A per-channel vector reshaped to [1, 512, 1, 1] and broadcast reads at its channel: the gain … -/
theorem gain_at (g : (⟨S512, .f32⟩ : BufTy).Contents (Elt Ideal)) (n : Fin 32) (c : Fin 512) (h w : Fin 32) :
    Read.val_main_v16 (F := Ideal) g (ix4 n c h w) = g (ix1 c) := by
  have e16 : Read.idx_main_v16 (ix4 n c h w) = ix4 (0 : Fin 1) c (0 : Fin 1) (0 : Fin 1) := idx_bcast n c h w
  have e15 : Read.idx_main_v15 (ix4 (0 : Fin 1) c (0 : Fin 1) (0 : Fin 1)) = ix1 c := idx_reshape c
  rw [Read.val_main_v16_apply, e16, Read.val_main_v15_apply, e15]

/-- … and the offset. -/
theorem offset_at (b : (⟨S512, .f32⟩ : BufTy).Contents (Elt Ideal)) (n : Fin 32) (c : Fin 512) (h w : Fin 32) :
    Read.val_main_v19 (F := Ideal) b (ix4 n c h w) = b (ix1 c) := by
  have e19 : Read.idx_main_v19 (ix4 n c h w) = ix4 (0 : Fin 1) c (0 : Fin 1) (0 : Fin 1) := idx_bcast n c h w
  have e18 : Read.idx_main_v18 (ix4 (0 : Fin 1) c (0 : Fin 1) (0 : Fin 1)) = ix1 c := idx_reshape c
  rw [Read.val_main_v19_apply, e19, Read.val_main_v18_apply, e18]

/-! ## The result -/

/-- The reference's result at `(n, c, h, w)` is `g c · ((x − mean) · |quad|) + b c`. -/
theorem reference_out (x : (⟨S32x512x32x32, .f32⟩ : BufTy).Contents (Elt Ideal)) (g b : (⟨S512, .f32⟩ : BufTy).Contents (Elt Ideal))
    (i : S32x512x32x32.Idx) :
    Cert.ReferenceIdeal.Read.val_main_v20 (F := Ideal) x g b i = Cert.Spec.outE x g b (i 0) (i 1) (i 2) (i 3) := by
  obtain ⟨n, c, h, w, rfl⟩ : ∃ (n : Fin 32) (c : Fin 512) (h w : Fin 32), i = ix4 n c h w :=
    ⟨i 0, i 1, i 2, i 3, eq_ix4 i⟩
  show Read.val_main_v20 (F := Ideal) x g b (ix4 n c h w) = Spec.outE x g b n c h w
  rw [Read.val_main_v20_apply, Read.val_main_v17_apply, Read.val_main_v14_apply, gain_at, centred_at, abs_bcast_at,
    offset_at]
  rfl

end Cert.ReferenceIdeal.RefValue

end
-- ==== Proof.Algebra.lean ====
/-
  The law that joins the two arrangements of the normalisation: on arrays all of whose entries are real numbers,
  the plane-sums-first result `outP` and the entries-centred-first result `outE` are the same extended real.

  Every quantity of the specification is first shown to be the coercion of the real number the same formula
  gives on the real entries (on real numbers each extended-real operation is the real one, and a finite sum of
  coercions is the coercion of the sum). Between the real formulas the law is elementary: the two means are the
  same triple sum; a plane of 32 · 32 = 1024 entries, each lowered by the mean `μ`, sums to the plane sum lowered
  by `μ · 1024`; hence the two quadratic quantities agree, and
  `x · (γ · |d|) + (β − (γ · |d|) · μ) = γ · ((x − μ) · |d|) + β` in any commutative ring.

  Finiteness is essential: distributivity fails at the infinities.
-/
import proofs.«113589_j72859825209967_2_alg».proof.Proof.Spec

open scoped BigOperators

noncomputable section

namespace Cert.Spec

open Idealize.ShloMosaic Idealize.ShloMosaic.ValueIdx

/-- an array all of whose entries are real numbers -/
def IsRealArr {ι : Type} (x : ι → EReal) : Prop := ∀ i, ∃ r : ℝ, x i = (r : EReal)

/-! ## The three float words are real numbers -/

/-- The word `0.0` denotes `0`. -/
theorem w0_eq : w0 = ((0 : ℝ) : EReal) := by
  rw [EReal.coe_zero]; exact Ideal.ofBits_zero_f32

/-- The word `1024.0` denotes the real `1024`. -/
theorem w1024_eq : w1024 = ((1024 : ℝ) : EReal) := by
  simp [w1024, Ideal.ofBits, Ideal.ieee, -EReal.coe_mul]; norm_num

/-- The word `32768.0` denotes the real `32768`. -/
theorem w32768_eq : w32768 = ((32768 : ℝ) : EReal) := by
  simp [w32768, Ideal.ofBits, Ideal.ieee, -EReal.coe_mul]; norm_num

/-! ## Finite sums of real numbers -/

/-- A finite sum of coercions is the coercion of the sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Division of a real by a nonzero real, in the specification's spelling. -/
theorem div_coe_coe (a : ℝ) {y : ℝ} (hy : y ≠ 0) : Ideal.div (a : EReal) (y : EReal) = ((a / y : ℝ) : EReal) := by
  rw [Ideal.div_coe hy, ← EReal.coe_mul]; congr 1; ring

/-- A plane of 1024 entries, each lowered by `μ`, sums to the plane sum lowered by `μ · 1024`. -/
theorem sum_plane_sub (f : Fin 32 → Fin 32 → ℝ) (μ : ℝ) :
    (∑ h : Fin 32, ∑ w : Fin 32, (f h w - μ)) = (∑ h : Fin 32, ∑ w : Fin 32, f h w) - μ * 1024 := by
  simp only [Finset.sum_sub_distrib, Finset.sum_const, Finset.card_univ, Fintype.card_fin, nsmul_eq_mul]
  push_cast; ring

/-! ## Plane sums first: each quantity is the coercion of its real counterpart

  `X`, `G`, `B` are the real entries of `x`, `g`, `b`; `R` the real entries of a table of plane sums. -/

/-- The plane sum of a real array. -/
theorem planeSum_coe (x : Arr4) (X : (⟨4, ![32, 512, 32, 32]⟩ : Shape).Idx → ℝ) (hX : ∀ i, x i = (X i : EReal))
    (n : Fin 32) (c : Fin 512) :
    planeSum x n c = ((∑ h : Fin 32, ∑ w : Fin 32, X (ix4 n c h w) : ℝ) : EReal) := by
  simp only [planeSum, hX, coe_sum]

/-- The channel mean of a real table of plane sums. -/
theorem meanP_coe (P : Planes) (R : Fin 32 → Fin 512 → ℝ) (hP : ∀ n c, P n c = (R n c : EReal)) (c : Fin 512) :
    meanP P c = (((∑ n : Fin 32, R n c) / 32768 : ℝ) : EReal) := by
  rw [meanP, w0_eq, w32768_eq]
  simp only [hP, coe_sum]
  rw [← EReal.coe_add, zero_add, div_coe_coe _ (by norm_num)]

/-- A centred plane sum of a real table. -/
theorem centredP_coe (P : Planes) (R : Fin 32 → Fin 512 → ℝ) (hP : ∀ n c, P n c = (R n c : EReal))
    (n : Fin 32) (c : Fin 512) :
    centredP P n c = ((R n c - (∑ m : Fin 32, R m c) / 32768 * 1024 : ℝ) : EReal) := by
  rw [centredP, meanP_coe P R hP, hP, w1024_eq, ← EReal.coe_mul, ← EReal.coe_sub]

/-- The quadratic quantity of a real table. -/
theorem quadP_coe (P : Planes) (R : Fin 32 → Fin 512 → ℝ) (hP : ∀ n c, P n c = (R n c : EReal)) (c : Fin 512) :
    quadP P c = (((∑ n : Fin 32, (R n c - (∑ m : Fin 32, R m c) / 32768 * 1024)
        * (R n c - (∑ m : Fin 32, R m c) / 32768 * 1024)) / 1024 : ℝ) : EReal) := by
  rw [quadP, w0_eq, w1024_eq]
  simp only [centredP_coe P R hP, ← EReal.coe_mul, coe_sum]
  rw [← EReal.coe_add, zero_add, div_coe_coe _ (by norm_num)]

/-- The larger of a real and its negative is its absolute value. -/
theorem max_neg_coe (q : ℝ) : max (q : EReal) (-(q : EReal)) = ((|q| : ℝ) : EReal) := by
  rw [← EReal.coe_neg, ← EReal.coe_strictMono.monotone.map_max, abs_eq_max_neg]

/-- The per-channel multiplier of a real table and a real gain. -/
theorem gainP_coe (P : Planes) (R : Fin 32 → Fin 512 → ℝ) (hP : ∀ n c, P n c = (R n c : EReal))
    (g : Arr1) (G : (⟨1, ![512]⟩ : Shape).Idx → ℝ) (hG : ∀ i, g i = (G i : EReal)) (c : Fin 512) :
    gainP P g c = ((G (ix1 c) * |(∑ n : Fin 32, (R n c - (∑ m : Fin 32, R m c) / 32768 * 1024)
        * (R n c - (∑ m : Fin 32, R m c) / 32768 * 1024)) / 1024| : ℝ) : EReal) := by
  rw [gainP, quadP_coe P R hP, hG, max_neg_coe, ← EReal.coe_mul]

/-- The per-channel offset of a real table, a real gain and a real offset. -/
theorem offsetP_coe (P : Planes) (R : Fin 32 → Fin 512 → ℝ) (hP : ∀ n c, P n c = (R n c : EReal))
    (g b : Arr1) (G B : (⟨1, ![512]⟩ : Shape).Idx → ℝ) (hG : ∀ i, g i = (G i : EReal)) (hB : ∀ i, b i = (B i : EReal))
    (c : Fin 512) :
    offsetP P g b c = ((B (ix1 c) - G (ix1 c) * |(∑ n : Fin 32, (R n c - (∑ m : Fin 32, R m c) / 32768 * 1024)
        * (R n c - (∑ m : Fin 32, R m c) / 32768 * 1024)) / 1024| * ((∑ m : Fin 32, R m c) / 32768) : ℝ) : EReal) := by
  rw [offsetP, gainP_coe P R hP g G hG, meanP_coe P R hP, hB, ← EReal.coe_mul, ← EReal.coe_sub]

/-- The plane-sums-first result on real arrays, with `R n c` the real plane sums, `μ` the channel mean and
    `d` the quadratic quantity: `X · (G · |d|) + (B − (G · |d|) · μ)`. -/
theorem outP_coe (x : Arr4) (g b : Arr1) (X : (⟨4, ![32, 512, 32, 32]⟩ : Shape).Idx → ℝ)
    (G B : (⟨1, ![512]⟩ : Shape).Idx → ℝ) (hX : ∀ i, x i = (X i : EReal)) (hG : ∀ i, g i = (G i : EReal))
    (hB : ∀ i, b i = (B i : EReal)) (R : Fin 32 → Fin 512 → ℝ)
    (hR : ∀ n c, R n c = ∑ h : Fin 32, ∑ w : Fin 32, X (ix4 n c h w))
    (n : Fin 32) (c : Fin 512) (h w : Fin 32) :
    outP x g b n c h w = ((X (ix4 n c h w) * (G (ix1 c) * |(∑ n : Fin 32, (R n c - (∑ m : Fin 32, R m c) / 32768 * 1024)
        * (R n c - (∑ m : Fin 32, R m c) / 32768 * 1024)) / 1024|)
      + (B (ix1 c) - G (ix1 c) * |(∑ n : Fin 32, (R n c - (∑ m : Fin 32, R m c) / 32768 * 1024)
        * (R n c - (∑ m : Fin 32, R m c) / 32768 * 1024)) / 1024| * ((∑ m : Fin 32, R m c) / 32768)) : ℝ) : EReal) := by
  have hP : ∀ n c, planeSum x n c = (R n c : EReal) := fun n c => by rw [planeSum_coe x X hX, hR]
  rw [outP, gainP_coe _ R hP g G hG, offsetP_coe _ R hP g b G B hG hB, hX, ← EReal.coe_mul, ← EReal.coe_add]

/-! ## Entries centred first: each quantity is the coercion of its real counterpart -/

/-- The channel mean of a real array as one triple sum. -/
theorem meanE_coe (x : Arr4) (X : (⟨4, ![32, 512, 32, 32]⟩ : Shape).Idx → ℝ) (hX : ∀ i, x i = (X i : EReal))
    (c : Fin 512) :
    meanE x c = (((∑ n : Fin 32, ∑ h : Fin 32, ∑ w : Fin 32, X (ix4 n c h w)) / 32768 : ℝ) : EReal) := by
  rw [meanE, w0_eq, w32768_eq]
  simp only [hX, coe_sum]
  rw [← EReal.coe_add, zero_add, div_coe_coe _ (by norm_num)]

/-- A centred entry of a real array. -/
theorem centredE_coe (x : Arr4) (X : (⟨4, ![32, 512, 32, 32]⟩ : Shape).Idx → ℝ) (hX : ∀ i, x i = (X i : EReal))
    (n : Fin 32) (c : Fin 512) (h w : Fin 32) :
    centredE x n c h w = ((X (ix4 n c h w)
      - (∑ n : Fin 32, ∑ h : Fin 32, ∑ w : Fin 32, X (ix4 n c h w)) / 32768 : ℝ) : EReal) := by
  rw [centredE, meanE_coe x X hX, hX, ← EReal.coe_sub]

/-- The sum of the centred entries of one plane of a real array. -/
theorem planeSumE_coe (x : Arr4) (X : (⟨4, ![32, 512, 32, 32]⟩ : Shape).Idx → ℝ) (hX : ∀ i, x i = (X i : EReal))
    (n : Fin 32) (c : Fin 512) :
    planeSumE x n c = ((∑ h : Fin 32, ∑ w : Fin 32, (X (ix4 n c h w)
      - (∑ n : Fin 32, ∑ h : Fin 32, ∑ w : Fin 32, X (ix4 n c h w)) / 32768) : ℝ) : EReal) := by
  rw [planeSumE, w0_eq]
  simp only [centredE_coe x X hX, coe_sum]
  rw [← EReal.coe_add, zero_add]

/-- The quadratic quantity of a real array, entries centred first. -/
theorem quadE_coe (x : Arr4) (X : (⟨4, ![32, 512, 32, 32]⟩ : Shape).Idx → ℝ) (hX : ∀ i, x i = (X i : EReal))
    (c : Fin 512) :
    quadE x c = (((∑ n : Fin 32,
        (∑ h : Fin 32, ∑ w : Fin 32, (X (ix4 n c h w)
          - (∑ n : Fin 32, ∑ h : Fin 32, ∑ w : Fin 32, X (ix4 n c h w)) / 32768))
        * (∑ h : Fin 32, ∑ w : Fin 32, (X (ix4 n c h w)
          - (∑ n : Fin 32, ∑ h : Fin 32, ∑ w : Fin 32, X (ix4 n c h w)) / 32768))) / 1024 : ℝ) : EReal) := by
  rw [quadE, w0_eq, w1024_eq]
  simp only [planeSumE_coe x X hX, ← EReal.coe_mul, coe_sum]
  rw [← EReal.coe_add, zero_add, div_coe_coe _ (by norm_num)]

/-- The entries-centred-first result on real arrays, with `μ` the channel mean and `d` the quadratic quantity:
    `G · ((X − μ) · |d|) + B`. -/
theorem outE_coe (x : Arr4) (g b : Arr1) (X : (⟨4, ![32, 512, 32, 32]⟩ : Shape).Idx → ℝ)
    (G B : (⟨1, ![512]⟩ : Shape).Idx → ℝ) (hX : ∀ i, x i = (X i : EReal)) (hG : ∀ i, g i = (G i : EReal))
    (hB : ∀ i, b i = (B i : EReal)) (n : Fin 32) (c : Fin 512) (h w : Fin 32) :
    outE x g b n c h w = ((G (ix1 c) * ((X (ix4 n c h w)
        - (∑ n : Fin 32, ∑ h : Fin 32, ∑ w : Fin 32, X (ix4 n c h w)) / 32768)
      * |(∑ n : Fin 32,
        (∑ h : Fin 32, ∑ w : Fin 32, (X (ix4 n c h w)
          - (∑ n : Fin 32, ∑ h : Fin 32, ∑ w : Fin 32, X (ix4 n c h w)) / 32768))
        * (∑ h : Fin 32, ∑ w : Fin 32, (X (ix4 n c h w)
          - (∑ n : Fin 32, ∑ h : Fin 32, ∑ w : Fin 32, X (ix4 n c h w)) / 32768))) / 1024|)
      + B (ix1 c) : ℝ) : EReal) := by
  rw [outE, centredE_coe x X hX, quadE_coe x X hX, max_neg_coe, hG, hB, ← EReal.coe_mul, ← EReal.coe_mul,
    ← EReal.coe_add]

/-! ## The law -/

/-- The affine form and the centred form of one real entry agree. -/
theorem affine_eq_centred (xv γ β μ d : ℝ) :
    xv * (γ * |d|) + (β - γ * |d| * μ) = γ * ((xv - μ) * |d|) + β := by ring

/-- On arrays of real numbers the two arrangements return the same extended real at every index. -/
theorem outP_eq_outE (x : Arr4) (g b : Arr1) (hx : IsRealArr x) (hg : IsRealArr g) (hb : IsRealArr b)
    (n : Fin 32) (c : Fin 512) (h w : Fin 32) : outP x g b n c h w = outE x g b n c h w := by
  choose X hX using hx
  choose G hG using hg
  choose B hB using hb
  rw [outP_coe x g b X G B hX hG hB (fun n c => ∑ h : Fin 32, ∑ w : Fin 32, X (ix4 n c h w)) (fun _ _ => rfl),
    outE_coe x g b X G B hX hG hB]
  congr 1
  simp only [sum_plane_sub]
  exact affine_eq_centred _ _ _ _ _

end Cert.Spec

end
-- ==== Proof.Finite.lean ====
/-
  From "every float input is finite" to "every entry of the three argument arrays is a real number".

  The precondition compares, entry by entry, the absolute value |v| = max v (-v) of each input with the word
  0x7F800000, which denotes +∞ on the extended reals, takes the conjunction of all those comparisons per array
  (a reduction by "and" over every axis, started from true), and joins the three results by "and".

  If the joined result is true then each of the three conjunctions is true, so each single comparison |v| < +∞ is
  true. On the extended reals |v| = +∞ exactly when v is −∞ or +∞, so the strict inequality leaves only the
  entries that are coercions of real numbers. Nothing here depends on the extents of the arrays: the argument is
  made once for an arbitrary shape and used three times.
-/
import proofs.«113589_j72859825209967_2_alg».proof.Proof.Gen.Pre_finite_inputs
import Idealize.ShloMosaic.Lib.ReduceAll
import Idealize.ShloMosaic.Lib.ValueIdx
import Idealize.ShloMosaic.PureOps.Ideal.Laws

namespace Cert.Pre_finite_inputs.Finite
open Idealize.ShloMosaic Cert.Pre_finite_inputs

/-- The shape with no axes has exactly one index. -/
local instance : Subsingleton S_.Idx := ⟨fun a b => funext fun d => d.elim0⟩

/-- The word 0x7F800000 (sign 0, exponent all ones, significand 0) denotes +∞. -/
theorem inf_word : Ideal.ofBits .f32 0x7F800000#32 = (⊤ : EReal) := by
  simp [Ideal.ofBits, Ideal.ieee]

/-- An extended real whose absolute value max v (-v) is strictly below +∞ is a real number:
    at v = −∞ and at v = +∞ the maximum is +∞ itself. -/
theorem real_of_abs_lt_inf (v : EReal)
    (e : Ideal.cmp .olt (max v (-v)) (Ideal.ofBits .f32 0x7F800000#32) = 1#1) : ∃ r : ℝ, v = (r : EReal) := by
  rw [inf_word] at e
  have hlt : max v (-v) < ⊤ := by
    by_contra hn
    simp [Ideal.cmp, hn] at e
  induction v using EReal.rec with
  | bot => simp at hlt
  | top => simp at hlt
  | coe r => exact ⟨r, rfl⟩

/-- For an array of any shape: if the conjunction over all entries of "|v i| < +∞" is true, every entry is real.
    The conjunction being true gives each comparison true, and the compared entry of the broadcast constant is the
    word for +∞ at every index. -/
theorem real_of_all {s : Shape} {axes : List (Fin s.rank)} (v : FVec Ideal s .f32)
    (hb : S_.BroadcastsInDim s (![] : Fin S_.rank → Fin s.rank)) (hr : s.ReducesTo axes S_) (hu : 0 < S_.numel)
    (e : Host.reduce IntOp.andi
          (cmpf .olt (Host.absf v) (broadcastInDim s ![] hb (constant (F := Ideal) S_ .f32 0x7F800000#32)))
          (constantI S_ 1 1#1) hr hu ValueIdx.ix0 = 1#1) :
    ∀ i, ∃ r : ℝ, v i = (r : EReal) := by
  intro i
  have hi := Host.reduce_andi_all _ _ hr hu ValueIdx.ix0 e i
  exact real_of_abs_lt_inf (v i) hi

/-- The precondition being true makes every entry of the input array, of the gain and of the offset a real number:
    the joined "and" splits into the three per-array conjunctions, and each of those gives its array entry by entry. -/
theorem real_of_pre [hF : Cert.Pre_finite_inputs.Facts] (x : FVec Ideal S32x512x32x32 .f32) (g b : FVec Ideal S512 .f32)
    (h : Cert.Pre_finite_inputs.fn (F := Ideal) x g b = (fun _ => 1#1)) :
    (∀ i, ∃ r : ℝ, x i = (r : EReal)) ∧ (∀ i, ∃ r : ℝ, g i = (r : EReal)) ∧ (∀ i, ∃ r : ℝ, b i = (r : EReal)) := by
  have h0 := congrFun h ValueIdx.ix0
  dsimp only [Cert.Pre_finite_inputs.fn] at h0
  obtain ⟨hxg, hb⟩ := IntOp.andi_eq_one.1 h0
  obtain ⟨hx, hg⟩ := IntOp.andi_eq_one.1 hxg
  exact ⟨real_of_all x _ _ _ hx, real_of_all g _ _ _ hg, real_of_all b _ _ _ hb⟩

end Cert.Pre_finite_inputs.Finite
-- ==== Proof.lean ====
/-
  A per-channel normalisation over an input `x` of extents [32, 512, 32, 32] with gain `g` and offset `b` of extent [512]:
  with `μ c` the mean of channel `c` over samples, rows and columns, `s n c` the sum of the centred entries of the plane
  (n, c), and `d c = (Σ_n (s n c)²) / 1024`, the result is `g c · |d c| · (x − μ c) + b c`.

  The kernel computes it in two regions. The first sums each (sample, channel) plane. Host operations between the regions
  take the mean of the plane sums, centre the plane sums by `μ c · 1024`, form `d c`, and fold everything into one multiplier
  `g c · |d c|` and one offset `b c − (g c · |d c|) · μ c` per channel. The second region applies that affine map entry by
  entry. The reference centres every entry first, sums the centred entries per plane, and multiplies at the end.

  On real inputs the two arrangements agree: the mean of the plane sums is the mean of the entries, a plane of 1024 entries
  each centred by `μ c` sums to the plane sum less `1024 · μ c`, and the affine map is the product expanded. Expanding a
  product over a sum needs finite values, which the precondition gives: every input entry is a real number, and then so
  is every intermediate quantity.

  The three frames: the two kernel programs' are the launch of their two regions around the host operations; the
  reference, having no kernel, runs as a line of host operations. No operation was rewritten between the kernel and its
  idealization, so that conjunct is trivial.
-/
import proofs.«113589_j72859825209967_2_alg».proof.Defs
import proofs.«113589_j72859825209967_2_alg».proof.Proof.Gen.Kernel
import proofs.«113589_j72859825209967_2_alg».proof.Proof.Gen.Kernel.Skeleton
import proofs.«113589_j72859825209967_2_alg».proof.Proof.Gen.Kernel.Launch
import proofs.«113589_j72859825209967_2_alg».proof.Proof.Gen.Kernel.Points
import proofs.«113589_j72859825209967_2_alg».proof.Proof.Gen.Kernel.Frame
import proofs.«113589_j72859825209967_2_alg».proof.Proof.Gen.KernelIdeal
import proofs.«113589_j72859825209967_2_alg».proof.Proof.Gen.KernelIdeal.Skeleton
import proofs.«113589_j72859825209967_2_alg».proof.Proof.Gen.KernelIdeal.Launch
import proofs.«113589_j72859825209967_2_alg».proof.Proof.Gen.KernelIdeal.Points
import proofs.«113589_j72859825209967_2_alg».proof.Proof.Gen.KernelIdeal.Frame
import proofs.«113589_j72859825209967_2_alg».proof.Proof.Gen.ReferenceIdeal
import proofs.«113589_j72859825209967_2_alg».proof.Proof.Gen.Pre_finite_inputs
import proofs.«113589_j72859825209967_2_alg».proof.Proof.Gen.ReferenceIdeal.Run
import proofs.«113589_j72859825209967_2_alg».proof.Proof.Gen.ReferenceIdeal.Read
import proofs.«113589_j72859825209967_2_alg».proof.Proof.KernelRun
import proofs.«113589_j72859825209967_2_alg».proof.Proof.KernelValue
import proofs.«113589_j72859825209967_2_alg».proof.Proof.RefValue
import proofs.«113589_j72859825209967_2_alg».proof.Proof.Algebra
import proofs.«113589_j72859825209967_2_alg».proof.Proof.Finite
import Idealize.ShloMosaic.Adequacy
import Idealize.ShloMosaic.Init

noncomputable section

namespace Cert.Proof

open Idealize.ShloMosaic Idealize.SL.Sem Idealize.ShloMosaic.TcCoe

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories agreeing on the arguments both programs end with the same result: the kernel's result array is the
    plane-sums-first arrangement of the launch arrays, the reference's the entries-centred-first arrangement, and on the real
    inputs the precondition gives the two agree at every index. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.Gen.W3 m ρ c (Proc.devRef .tc Cert.KernelIdeal.main_v20),
    Cert.KernelIdeal.Run.run_main m ρ, ?_⟩
  refine (θ_run Cert.ReferenceIdeal.defs _ _).mono (fun _ h c => ⟨(h c).1.trans ?_, (h c).2⟩)
    (Cert.ReferenceIdeal.Value.run (F := Ideal) m' ρ')
  obtain ⟨hx, hg, hb⟩ := Cert.Pre_finite_inputs.Finite.real_of_pre _ _ _ (hpre c)
  rw [Cert.ReferenceIdeal.Read.val_main_v20_eq, (hagree c).1, (hagree c).2.1, (hagree c).2.2]
  funext i
  rw [Cert.ReferenceIdeal.RefValue.reference_out]
  exact ((Cert.Spec.outP_eq_outE _ _ _ hx hg hb (i 0) (i 1) (i 2) (i 3)).symm).trans
    (Cert.KernelIdeal.KernelValue.result_at m ρ c i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
